-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S800000 : Shape := ⟨1, ![800000]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S1x128 : Shape := ⟨2, ![1, 128]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1 .f32) (main_v48 : IVec S_ 1) (main_v49 : FVec F S1x128 .f32) (main_v50 : FVec F S1x128 .f32) : IVec S_ 1 :=
  let main_v51 : IVec S1x128 1 := cmpf .olt main_v49 main_v50
  let main_c_19 : IVec S_ 1 := constantI S_ 1 1#1
  let main_v52 : IVec S_ 1 := (fun x v => Host.reduce IntOp.andi x v reducesTo_S1x128_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg9 : FVec F S2x128x128 .f32) (main_arg10 : FVec F S128x128 .f32) (main_arg11 : FVec F S128 .f32) (main_arg12 : FVec F S1x128 .f32) (main_arg13 : FVec F S1 .f32) (main_v33 : IVec S_ 1) : IVec S_ 1 :=
  let main_v34 : FVec F S2x128x128 .f32 := Host.absf main_arg9
  let main_cst_12 : FVec F S_ .f32 := constant S_ .f32 0x7F800000#32
  let main_v35 : FVec F S2x128x128 .f32 := broadcastInDim S2x128x128 ![] bcast_S_S2x128x128 main_cst_12
  let main_v36 : IVec S2x128x128 1 := cmpf .olt main_v34 main_v35
  let main_c_13 : IVec S_ 1 := constantI S_ 1 1#1
  let main_v37 : IVec S_ 1 := (fun x v => Host.reduce IntOp.andi x v reducesTo_S2x128x128_S_d0_1_2 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S1x128 .f32 := Host.absf main_arg12
  let main_cst_18 : FVec F S_ .f32 := constant S_ .f32 0x7F800000#32
  let main_v50 : FVec F S1x128 .f32 := broadcastInDim S1x128 ![] bcast_S_S1x128 main_cst_18
  fn_part3 (F := F) main_arg13 main_v48 main_v49 main_v50

def fn_part1 {F : FTy → Type} [FloatOps F] (main_arg6 : FVec F S128x128 .f32) (main_arg7 : FVec F S2x128x128 .f32) (main_arg8 : FVec F S2x128 .f32) (main_arg9 : FVec F S2x128x128 .f32) (main_arg10 : FVec F S128x128 .f32) (main_arg11 : FVec F S128 .f32) (main_arg12 : FVec F S1x128 .f32) (main_arg13 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S2x128x128 .f32 := Host.absf main_arg7
  let main_cst_8 : FVec F S_ .f32 := constant S_ .f32 0x7F800000#32
  let main_v25 : FVec F S2x128x128 .f32 := broadcastInDim S2x128x128 ![] bcast_S_S2x128x128 main_cst_8
  let main_v26 : IVec S2x128x128 1 := cmpf .olt main_v24 main_v25
  let main_c_9 : IVec S_ 1 := constantI S_ 1 1#1
  let main_v27 : IVec S_ 1 := (fun x v => Host.reduce IntOp.andi x v reducesTo_S2x128x128_S_d0_1_2 h_S_) main_v26 main_c_9
  let main_v28 : IVec S_ 1 := andi main_v23 main_v27
  let main_v29 : FVec F S2x128 .f32 := Host.absf main_arg8
  let main_cst_10 : FVec F S_ .f32 := constant S_ .f32 0x7F800000#32
  let main_v30 : FVec F S2x128 .f32 := broadcastInDim S2x128 ![] bcast_S_S2x128 main_cst_10
  let main_v31 : IVec S2x128 1 := cmpf .olt main_v29 main_v30
  let main_c_11 : IVec S_ 1 := constantI S_ 1 1#1
  let main_v32 : IVec S_ 1 := (fun x v => Host.reduce IntOp.andi x v reducesTo_S2x128_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S50000x128 .f32) (main_arg1 : IVec S2x800000 32) (main_arg2 : IVec S50000 32) (main_arg3 : FVec F S800000 .f32) (main_arg4 : FVec F S128x128 .f32) (main_arg5 : FVec F S128 .f32) (main_arg6 : FVec F S128x128 .f32) (main_arg7 : FVec F S2x128x128 .f32) (main_arg8 : FVec F S2x128 .f32) (main_arg9 : FVec F S2x128x128 .f32) (main_arg10 : FVec F S128x128 .f32) (main_arg11 : FVec F S128 .f32) (main_arg12 : FVec F S1x128 .f32) (main_arg13 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S800000 : Shape := ⟨1, ![800000]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S1x128 : Shape := ⟨2, ![1, 128]⟩
abbrev S1 : Shape := ⟨1, ![1]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S2000x128 : Shape := ⟨2, ![2000, 128]⟩
abbrev S1x128x128 : Shape := ⟨3, ![1, 128, 128]⟩
abbrev S512x128 : Shape := ⟨2, ![512, 128]⟩
abbrev S50000x1 : Shape := ⟨2, ![50000, 1]⟩
abbrev S128x1 : Shape := ⟨2, ![128, 1]⟩
abbrev S512x1 : Shape := ⟨2, ![512, 1]⟩
abbrev S1x1 : Shape := ⟨2, ![1, 1]⟩

abbrev nBuf : Space → Nat
  | .hbm => 94
  | .vmem => 33
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S800000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S2x128x128, .f32⟩
  | .hbm, ⟨8, _⟩ => ⟨S2x128, .f32⟩
  | .hbm, ⟨9, _⟩ => ⟨S2x128x128, .f32⟩
  | .hbm, ⟨10, _⟩ => ⟨S128x128, .f32⟩
  | .hbm, ⟨11, _⟩ => ⟨S128, .f32⟩
  | .hbm, ⟨12, _⟩ => ⟨S1x128, .f32⟩
  | .hbm, ⟨13, _⟩ => ⟨S1, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S128x128, .f32⟩
  | .hbm, ⟨19, _⟩ => ⟨S128x128, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x128, .f32⟩
  | .hbm, ⟨29, _⟩ => ⟨S800000x1, .f32⟩
  | .hbm, ⟨30, _⟩ => ⟨S800000x128, .f32⟩
  | .hbm, ⟨31, _⟩ => ⟨S800000x128, .f32⟩
  | .hbm, ⟨32, _⟩ => ⟨S_, .f32⟩
  | .hbm, ⟨33, _⟩ => ⟨S50000x128, .f32⟩
  | .hbm, ⟨34, _⟩ => ⟨S800000x1, .i32⟩
  | .hbm, ⟨35, _⟩ => ⟨S50000x128, .f32⟩
  | .hbm, ⟨36, _⟩ => ⟨S50000x128, .f32⟩
  | .hbm, ⟨37, _⟩ => ⟨S1x128x128, .f32⟩
  | .hbm, ⟨38, _⟩ => ⟨S128x128, .f32⟩
  | .hbm, ⟨39, _⟩ => ⟨S128x128, .f32⟩
  | .hbm, ⟨40, _⟩ => ⟨S1x128, .f32⟩
  | .hbm, ⟨41, _⟩ => ⟨S128, .f32⟩
  | .hbm, ⟨42, _⟩ => ⟨S1x128x128, .f32⟩
  | .hbm, ⟨43, _⟩ => ⟨S128x128, .f32⟩
  | .hbm, ⟨44, _⟩ => ⟨S128x128, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S800000x1, .f32⟩
  | .hbm, ⟨55, _⟩ => ⟨S800000x128, .f32⟩
  | .hbm, ⟨56, _⟩ => ⟨S800000x128, .f32⟩
  | .hbm, ⟨57, _⟩ => ⟨S_, .f32⟩
  | .hbm, ⟨58, _⟩ => ⟨S50000x128, .f32⟩
  | .hbm, ⟨59, _⟩ => ⟨S800000x1, .i32⟩
  | .hbm, ⟨60, _⟩ => ⟨S50000x128, .f32⟩
  | .hbm, ⟨61, _⟩ => ⟨S50000x128, .f32⟩
  | .hbm, ⟨62, _⟩ => ⟨S1x128x128, .f32⟩
  | .hbm, ⟨63, _⟩ => ⟨S128x128, .f32⟩
  | .hbm, ⟨64, _⟩ => ⟨S128x128, .f32⟩
  | .hbm, ⟨65, _⟩ => ⟨S1x128, .f32⟩
  | .hbm, ⟨66, _⟩ => ⟨S128, .f32⟩
  | .hbm, ⟨67, _⟩ => ⟨S1x128x128, .f32⟩
  | .hbm, ⟨68, _⟩ => ⟨S128x128, .f32⟩
  | .hbm, ⟨69, _⟩ => ⟨S128x128, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000x128, .f32⟩
  | .hbm, ⟨79, _⟩ => ⟨S800000x1, .f32⟩
  | .hbm, ⟨80, _⟩ => ⟨S800000x128, .f32⟩
  | .hbm, ⟨81, _⟩ => ⟨S800000x128, .f32⟩
  | .hbm, ⟨82, _⟩ => ⟨S_, .f32⟩
  | .hbm, ⟨83, _⟩ => ⟨S50000x128, .f32⟩
  | .hbm, ⟨84, _⟩ => ⟨S800000x1, .i32⟩
  | .hbm, ⟨85, _⟩ => ⟨S50000x128, .f32⟩
  | .hbm, ⟨86, _⟩ => ⟨S50000x128, .f32⟩
  | .hbm, ⟨87, _⟩ => ⟨S_, .f32⟩
  | .hbm, ⟨88, _⟩ => ⟨S512x128, .f32⟩
  | .hbm, ⟨89, _⟩ => ⟨S50000x1, .i32⟩
  | .hbm, ⟨90, _⟩ => ⟨S512x128, .f32⟩
  | .hbm, ⟨91, _⟩ => ⟨S128x128, .f32⟩
  | .hbm, ⟨92, _⟩ => ⟨S128x1, .f32⟩
  | .hbm, ⟨93, _⟩ => ⟨S512x1, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S128, .f32⟩
  | .local _ .vmem, ⟨24, _⟩ => ⟨S128x128, .f32⟩
  | .local _ .vmem, ⟨25, _⟩ => ⟨S2000x128, .f32⟩
  | .local _ .vmem, ⟨26, _⟩ => ⟨S2000x128, .f32⟩
  | .local _ .vmem, ⟨27, _⟩ => ⟨S512x128, .f32⟩
  | .local _ .vmem, ⟨28, _⟩ => ⟨S128x128, .f32⟩
  | .local _ .vmem, ⟨29, _⟩ => ⟨S128, .f32⟩
  | .local _ .vmem, ⟨30, _⟩ => ⟨S128x1, .f32⟩
  | .local _ .vmem, ⟨31, _⟩ => ⟨S1, .f32⟩
  | .local _ .vmem, ⟨32, _⟩ => ⟨S512x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c : Ref sig .tc := ⟨.hbm, 20, rfl⟩
abbrev main_v6 : Ref sig .tc := ⟨.hbm, 21, rfl⟩
abbrev main_v7 : Ref sig .tc := ⟨.hbm, 22, rfl⟩
abbrev main_c_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_1 : Ref sig .tc := ⟨.hbm, 45, rfl⟩
abbrev main_v28 : Ref sig .tc := ⟨.hbm, 46, rfl⟩
abbrev main_v29 : Ref sig .tc := ⟨.hbm, 47, rfl⟩
abbrev main_c_2 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_3 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_4 : Ref sig .tc := ⟨.hbm, 70, rfl⟩
abbrev main_v50 : Ref sig .tc := ⟨.hbm, 71, rfl⟩
abbrev main_v51 : Ref sig .tc := ⟨.hbm, 72, rfl⟩
abbrev main_c_5 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_6 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_7 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S512x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S128x128_S128x128_1_0 : S128x128.Transposes [1, 0] S128x128
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  shapeCasts_S128_S128 : S128.ShapeCasts S128
  slices_S2x128x128_S1x128x128_1_0_0 : S2x128x128.Slices ![1, 0, 0] S1x128x128
  slices_S2x128_S1x128_1_0 : S2x128.Slices ![1, 0] S1x128
  bcast_S_S512x128 : S_.BroadcastsInDim S512x128 (![] : Fin 0 → Fin S512x128.rank)
  bcast_S50000_S50000x1_0 : S50000.BroadcastsInDim S50000x1 (![0] : Fin 1 → Fin S50000x1.rank)
  transposes_S1x128_S128x1_1_0 : S1x128.Transposes [1, 0] S128x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S1x128_S512x128 : S1x128.Broadcasts S512x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1_S1_0 : ∀ a, (![0] : Fin 1 → Nat) a + S1.size a ≤ S1.size a
  h_S1 : 0 < S1.numel
  shapeCasts_S1_S1x1 : S1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  scatter_S512x128_S50000x1_S50000x128_1_0_0_1_wf : ScatterDims.WF S512x128 S50000x1 S50000x128 [1] [0] [0] 1
  dot_S512x128_S128x128_S512x128_1_0_0_1_n_n_wf : DotDims.WF S512x128 S128x128 S512x128 [1] [0] [0] [1] [] []
  dot_S512x128_S128x1_S512x1_1_0_0_1_n_n_wf : DotDims.WF S512x128 S128x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x128.size a ≤ S512x128.size a
  hwx3_0 : ∀ i : grid3.Coords, EltTy.bits .f32 = 32 ∨ (Rect.block (s := S512x128) S512x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x1.size a ≤ S128x1.size a
  hwx3_3 : ∀ i : grid3.Coords, EltTy.bits .f32 = 32 ∨ (Rect.block (s := S128x1) S128x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1.size a ≤ S1.size a
  hwx3_4 : ∀ i : grid3.Coords, EltTy.bits .f32 = 32 ∨ (Rect.block (s := S1) S1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S512x1.size a ≤ S512x1.size a
  hwx3_5 : ∀ i : grid3.Coords, EltTy.bits .f32 = 32 ∨ (Rect.block (s := S512x1) S512x1.size (cc3_transform_5 i) (hinb3_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

abbrev win0_0 : Pipeline.Window sig grid0 :=
  Pipeline.Window.ofSpec (Memref.whole main_v18) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v62) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v44) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v63) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v66) S512x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v67) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v68) S128x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg13) S1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v69) S512x1.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S800000 : Shape := ⟨1, ![800000]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S1x128 : Shape := ⟨2, ![1, 128]⟩
abbrev S1 : Shape := ⟨1, ![1]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S512x128 : Shape := ⟨2, ![512, 128]⟩
abbrev S50000x1 : Shape := ⟨2, ![50000, 1]⟩
abbrev S128x1 : Shape := ⟨2, ![128, 1]⟩
abbrev S512x1 : Shape := ⟨2, ![512, 1]⟩
abbrev S1x1 : Shape := ⟨2, ![1, 1]⟩

abbrev nBuf : Space → Nat
  | .hbm => 128
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S800000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S2x128x128, .f32⟩
  | .hbm, ⟨8, _⟩ => ⟨S2x128, .f32⟩
  | .hbm, ⟨9, _⟩ => ⟨S2x128x128, .f32⟩
  | .hbm, ⟨10, _⟩ => ⟨S128x128, .f32⟩
  | .hbm, ⟨11, _⟩ => ⟨S128, .f32⟩
  | .hbm, ⟨12, _⟩ => ⟨S1x128, .f32⟩
  | .hbm, ⟨13, _⟩ => ⟨S1, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S800000x1, .f32⟩
  | .hbm, ⟨28, _⟩ => ⟨S800000x128, .f32⟩
  | .hbm, ⟨29, _⟩ => ⟨S800000x128, .f32⟩
  | .hbm, ⟨30, _⟩ => ⟨S_, .f32⟩
  | .hbm, ⟨31, _⟩ => ⟨S50000x128, .f32⟩
  | .hbm, ⟨32, _⟩ => ⟨S800000x1, .i32⟩
  | .hbm, ⟨33, _⟩ => ⟨S50000x128, .f32⟩
  | .hbm, ⟨34, _⟩ => ⟨S128x128, .f32⟩
  | .hbm, ⟨35, _⟩ => ⟨S50000x128, .f32⟩
  | .hbm, ⟨36, _⟩ => ⟨S1x128, .f32⟩
  | .hbm, ⟨37, _⟩ => ⟨S50000x128, .f32⟩
  | .hbm, ⟨38, _⟩ => ⟨S50000x128, .f32⟩
  | .hbm, ⟨39, _⟩ => ⟨S128x128, .f32⟩
  | .hbm, ⟨40, _⟩ => ⟨S50000x128, .f32⟩
  | .hbm, ⟨41, _⟩ => ⟨S50000x128, .f32⟩
  | .hbm, ⟨42, _⟩ => ⟨S_, .f32⟩
  | .hbm, ⟨43, _⟩ => ⟨S50000x128, .f32⟩
  | .hbm, ⟨44, _⟩ => ⟨S50000x128, .f32⟩
  | .hbm, ⟨45, _⟩ => ⟨S1x128x128, .f32⟩
  | .hbm, ⟨46, _⟩ => ⟨S128x128, .f32⟩
  | .hbm, ⟨47, _⟩ => ⟨S1x128, .f32⟩
  | .hbm, ⟨48, _⟩ => ⟨S128, .f32⟩
  | .hbm, ⟨49, _⟩ => ⟨S1x128x128, .f32⟩
  | .hbm, ⟨50, _⟩ => ⟨S128x128, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .f32⟩
  | .hbm, ⟨60, _⟩ => ⟨S800000x1, .f32⟩
  | .hbm, ⟨61, _⟩ => ⟨S800000x128, .f32⟩
  | .hbm, ⟨62, _⟩ => ⟨S800000x128, .f32⟩
  | .hbm, ⟨63, _⟩ => ⟨S_, .f32⟩
  | .hbm, ⟨64, _⟩ => ⟨S50000x128, .f32⟩
  | .hbm, ⟨65, _⟩ => ⟨S800000x1, .i32⟩
  | .hbm, ⟨66, _⟩ => ⟨S50000x128, .f32⟩
  | .hbm, ⟨67, _⟩ => ⟨S128x128, .f32⟩
  | .hbm, ⟨68, _⟩ => ⟨S50000x128, .f32⟩
  | .hbm, ⟨69, _⟩ => ⟨S1x128, .f32⟩
  | .hbm, ⟨70, _⟩ => ⟨S50000x128, .f32⟩
  | .hbm, ⟨71, _⟩ => ⟨S50000x128, .f32⟩
  | .hbm, ⟨72, _⟩ => ⟨S128x128, .f32⟩
  | .hbm, ⟨73, _⟩ => ⟨S50000x128, .f32⟩
  | .hbm, ⟨74, _⟩ => ⟨S50000x128, .f32⟩
  | .hbm, ⟨75, _⟩ => ⟨S_, .f32⟩
  | .hbm, ⟨76, _⟩ => ⟨S50000x128, .f32⟩
  | .hbm, ⟨77, _⟩ => ⟨S50000x128, .f32⟩
  | .hbm, ⟨78, _⟩ => ⟨S1x128x128, .f32⟩
  | .hbm, ⟨79, _⟩ => ⟨S128x128, .f32⟩
  | .hbm, ⟨80, _⟩ => ⟨S1x128, .f32⟩
  | .hbm, ⟨81, _⟩ => ⟨S128, .f32⟩
  | .hbm, ⟨82, _⟩ => ⟨S1x128x128, .f32⟩
  | .hbm, ⟨83, _⟩ => ⟨S128x128, .f32⟩
  | .hbm, ⟨84, _⟩ => ⟨S_, .i32⟩
  | .hbm, ⟨85, _⟩ => ⟨S800000, .i32⟩
  | .hbm, ⟨86, _⟩ => ⟨S800000, .i1⟩
  | .hbm, ⟨87, _⟩ => ⟨S_, .i32⟩
  | .hbm, ⟨88, _⟩ => ⟨S800000, .i32⟩
  | .hbm, ⟨89, _⟩ => ⟨S800000, .i32⟩
  | .hbm, ⟨90, _⟩ => ⟨S800000, .i32⟩
  | .hbm, ⟨91, _⟩ => ⟨S800000x1, .i32⟩
  | .hbm, ⟨92, _⟩ => ⟨S800000x128, .f32⟩
  | .hbm, ⟨93, _⟩ => ⟨S800000x1, .f32⟩
  | .hbm, ⟨94, _⟩ => ⟨S800000x128, .f32⟩
  | .hbm, ⟨95, _⟩ => ⟨S800000x128, .f32⟩
  | .hbm, ⟨96, _⟩ => ⟨S_, .f32⟩
  | .hbm, ⟨97, _⟩ => ⟨S50000x128, .f32⟩
  | .hbm, ⟨98, _⟩ => ⟨S800000x1, .i32⟩
  | .hbm, ⟨99, _⟩ => ⟨S50000x128, .f32⟩
  | .hbm, ⟨100, _⟩ => ⟨S128x128, .f32⟩
  | .hbm, ⟨101, _⟩ => ⟨S50000x128, .f32⟩
  | .hbm, ⟨102, _⟩ => ⟨S1x128, .f32⟩
  | .hbm, ⟨103, _⟩ => ⟨S50000x128, .f32⟩
  | .hbm, ⟨104, _⟩ => ⟨S50000x128, .f32⟩
  | .hbm, ⟨105, _⟩ => ⟨S128x128, .f32⟩
  | .hbm, ⟨106, _⟩ => ⟨S50000x128, .f32⟩
  | .hbm, ⟨107, _⟩ => ⟨S50000x128, .f32⟩
  | .hbm, ⟨108, _⟩ => ⟨S_, .f32⟩
  | .hbm, ⟨109, _⟩ => ⟨S50000x128, .f32⟩
  | .hbm, ⟨110, _⟩ => ⟨S50000x128, .f32⟩
  | .hbm, ⟨111, _⟩ => ⟨S_, .f32⟩
  | .hbm, ⟨112, _⟩ => ⟨S512x128, .f32⟩
  | .hbm, ⟨113, _⟩ => ⟨S50000x1, .i32⟩
  | .hbm, ⟨114, _⟩ => ⟨S512x128, .f32⟩
  | .hbm, ⟨115, _⟩ => ⟨S128x128, .f32⟩
  | .hbm, ⟨116, _⟩ => ⟨S512x128, .f32⟩
  | .hbm, ⟨117, _⟩ => ⟨S1x128, .f32⟩
  | .hbm, ⟨118, _⟩ => ⟨S512x128, .f32⟩
  | .hbm, ⟨119, _⟩ => ⟨S512x128, .f32⟩
  | .hbm, ⟨120, _⟩ => ⟨S_, .f32⟩
  | .hbm, ⟨121, _⟩ => ⟨S512x128, .f32⟩
  | .hbm, ⟨122, _⟩ => ⟨S512x128, .f32⟩
  | .hbm, ⟨123, _⟩ => ⟨S128x1, .f32⟩
  | .hbm, ⟨124, _⟩ => ⟨S512x1, .f32⟩
  | .hbm, ⟨125, _⟩ => ⟨S1x1, .f32⟩
  | .hbm, ⟨126, _⟩ => ⟨S512x1, .f32⟩
  | .hbm, ⟨127, _⟩ => ⟨S512x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call0_cst : Ref sig .tc := ⟨.hbm, 42, rfl⟩
abbrev main_call0_v0 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_1 : Ref sig .tc := ⟨.hbm, 51, rfl⟩
abbrev main_v32 : Ref sig .tc := ⟨.hbm, 52, rfl⟩
abbrev main_v33 : Ref sig .tc := ⟨.hbm, 53, rfl⟩
abbrev main_c_2 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_3 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_call1_cst : Ref sig .tc := ⟨.hbm, 75, rfl⟩
abbrev main_call1_v0 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_4 : Ref sig .tc := ⟨.hbm, 84, rfl⟩
abbrev main_v60 : Ref sig .tc := ⟨.hbm, 85, rfl⟩
abbrev main_v61 : Ref sig .tc := ⟨.hbm, 86, rfl⟩
abbrev main_c_5 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_6 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_call2_cst : Ref sig .tc := ⟨.hbm, 108, rfl⟩
abbrev main_call2_v0 : Ref sig .tc := ⟨.hbm, 109, rfl⟩
abbrev main_v81 : Ref sig .tc := ⟨.hbm, 110, rfl⟩
abbrev main_cst_7 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_call3_cst : Ref sig .tc := ⟨.hbm, 120, rfl⟩
abbrev main_call3_v0 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  slices_S2x128x128_S1x128x128_1_0_0 : S2x128x128.Slices ![1, 0, 0] S1x128x128
  slices_S2x128_S1x128_1_0 : S2x128.Slices ![1, 0] S1x128
  bcast_S_S512x128 : S_.BroadcastsInDim S512x128 (![] : Fin 0 → Fin S512x128.rank)
  bcast_S50000_S50000x1_0 : S50000.BroadcastsInDim S50000x1 (![0] : Fin 1 → Fin S50000x1.rank)
  bcast_S1x128_S512x128_0_1 : S1x128.BroadcastsInDim S512x128 (![0, 1] : Fin 2 → Fin S512x128.rank)
  transposes_S1x128_S128x1_1_0 : S1x128.Transposes [1, 0] S128x1
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S512x128_S50000x1_S50000x128_1_0_0_1_wf : ScatterDims.WF S512x128 S50000x1 S50000x128 [1] [0] [0] 1
  dot_S512x128_S128x128_S512x128_1_0_0_1_n_n_wf : DotDims.WF S512x128 S128x128 S512x128 [1] [0] [0] [1] [] []
  dot_S512x128_S128x1_S512x1_1_0_0_1_n_n_wf : DotDims.WF S512x128 S128x1 S512x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

class Facts : Prop extends Facts₀ where

variable [Facts]
-- ==== Proof.KernelRun.lean ====
/-
  The kernel program's run with its result NAMED.  The program is four pallas regions (three graph-convolution
  layers and the pooled two-layer head) among stretches of host operations; the buffer contents at the eight
  segment boundaries are the fold `W0 … W8` through @main.  Every weakly fair execution terminates with every
  unscoped buffer at `W8`; in particular the result buffer holds `W8` at the result's reference and the
  fourteen argument arrays are as launched.  The value modules read `W8` back, region by region.
-/
import proofs.«117946_j52020643889507_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the eight segments, the last thread state read against the final state: the result buffer is
    the last boundary's contents at the result's reference, and each argument array walks back through the fold
    to the launch memory. -/
theorem run_named : θ_run defs (onTc (τ := τ) (main (F := F))) ⟨m, fun _ => 0, ρ⟩ (fun r => ∀ c : Dev nD,
      r.2.mem ((c.tc : Thread nD τ).loc main_v69) = W8 m ρ c (Proc.devRef .tc main_v69)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v69 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c)⟩)

end Cert.KernelIdeal.Named

end
-- ==== Proof.Bodies.lean ====
/-
  The four kernel bodies as arithmetic on exact values, read at a block coordinate.
  A graph-convolution body takes a block of 2000 aggregated rows `a`, the same rows of the node features `h`,
  the two (already transposed) weight matrices and the bias row, and leaves
  `max (a·wrel + h·wroot + b, 0)`; the head takes the pooled rows and leaves
  `max (x·w1 + b1, 0)·w2 + b2`.  Every product is a plain sum over the 128 contracted positions.
-/
import proofs.«117946_j52020643889507_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Bodies

open Cert.KernelIdeal Cert.KernelIdeal.Gen Idealize.ShloMosaic Idealize.ShloMosaic.ValueIdx

/-- A 2000×128 block times a 128×128 matrix into a zero accumulator, at `(p, q)`: the sum over the contracted position `k` of `x (p, k) · w (k, q)`. -/
theorem blockProduct_lhs0 (i : S2000x128.Idx) (q : dot_S2000x128_S128x128_S2000x128_1_0_0_1_n_n.contr.Idx) : (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem blockProduct_rhs1 (i : S2000x128.Idx) (q : dot_S2000x128_S128x128_S2000x128_1_0_0_1_n_n.contr.Idx) : (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl
theorem blockProduct {φ₁ φ₂ : FTy} (x : FVec Ideal S2000x128 φ₁) (w : FVec Ideal S128x128 φ₂) (p : Fin 2000) (q : Fin 128) :
    matmul dot_S2000x128_S128x128_S2000x128_1_0_0_1_n_n none x w (constant (F := Ideal) S2000x128 .f32 0x00000000#32) (ix2 p q)
      = ∑ k : Fin 128, x (ix2 p k) * w (ix2 k q) := by
  refine (Ideal.matmul_constant_zero_apply dot_S2000x128_S128x128_S2000x128_1_0_0_1_n_n none x w (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact blockProduct_lhs0 _ _
    | ⟨1, _⟩ => exact (dot_S2000x128_S128x128_S2000x128_1_0_0_1_n_n.lhsIdx_val_of_single rfl _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (dot_S2000x128_S128x128_S2000x128_1_0_0_1_n_n.rhsIdx_val_of_single rfl _ _).trans hk
    | ⟨1, _⟩ => exact blockProduct_rhs1 _ _)
  rw [el, er]

/-- The pooled 512×128 rows times a 128×128 matrix into a zero accumulator, at `(p, q)`. -/
theorem hiddenProduct_lhs0 (i : S512x128.Idx) (q : dot_S512x128_S128x128_S512x128_1_0_0_1_n_n.contr.Idx) : (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
theorem hiddenProduct_rhs1 (i : S512x128.Idx) (q : dot_S512x128_S128x128_S512x128_1_0_0_1_n_n.contr.Idx) : (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl
theorem hiddenProduct {φ₁ φ₂ : FTy} (x : FVec Ideal S512x128 φ₁) (w : FVec Ideal S128x128 φ₂) (p : Fin 512) (q : Fin 128) :
    matmul dot_S512x128_S128x128_S512x128_1_0_0_1_n_n none x w (constant (F := Ideal) S512x128 .f32 0x00000000#32) (ix2 p q)
      = ∑ k : Fin 128, x (ix2 p k) * w (ix2 k q) := by
  refine (Ideal.matmul_constant_zero_apply dot_S512x128_S128x128_S512x128_1_0_0_1_n_n none x w (ix2 p q)).trans ?_
  rw [← Equiv.sum_comp (contrEquiv1 dot_S512x128_S128x128_S512x128_1_0_0_1_n_n 128 rfl rfl).symm]
  refine Finset.sum_congr rfl fun k _ => ?_
  have hk := contrEquiv1_symm_val dot_S512x128_S128x128_S512x128_1_0_0_1_n_n 128 rfl rfl k
  have el : dot_S512x128_S128x128_S512x128_1_0_0_1_n_n.lhsIdx (ix2 p q) ((contrEquiv1 dot_S512x128_S128x128_S512x128_1_0_0_1_n_n 128 rfl rfl).symm k) = ix2 p k := funext fun a => Fin.ext (by
    match a with
    | ⟨0, _⟩ => exact hiddenProduct_lhs0 _ _
    | ⟨1, _⟩ => exact (dot_S512x128_S128x128_S512x128_1_0_0_1_n_n.lhsIdx_val_of_single rfl _ _).trans hk)
  have er : dot_S512x128_S128x128_S512x128_1_0_0_1_n_n.rhsIdx (ix2 p q) ((contrEquiv1 dot_S512x128_S128x128_S512x128_1_0_0_1_n_n 128 rfl rfl).symm k) = ix2 k q := funext fun a => Fin.ext (by
    match a with
    | ⟨0, _⟩ => exact (dot_S512x128_S128x128_S512x128_1_0_0_1_n_n.rhsIdx_val_of_single rfl _ _).trans hk
    | ⟨1, _⟩ => exact hiddenProduct_rhs1 _ _)
  rw [el, er]

/-- The hidden 512×128 rows times a 128×1 column into a zero accumulator, at `(p, 0)`. -/
theorem outProduct_lhs0 (i : S512x1.Idx) (q : dot_S512x128_S128x1_S512x1_1_0_0_1_n_n.contr.Idx) : (dot_S512x128_S128x1_S512x1_1_0_0_1_n_n.lhsIdx i q 0).val = (i 0).val := by
  unfold DotDims.lhsIdx
  rw [dif_neg (show ¬(0 : Fin S512x128.rank) ∈ dot_S512x128_S128x1_S512x1_1_0_0_1_n_n.lhsBatch by decide), dif_pos (show (0 : Fin S512x128.rank) ∈ dot_S512x128_S128x1_S512x1_1_0_0_1_n_n.lhsNonContracting by decide)]
  rfl
theorem outProduct_rhs1 (i : S512x1.Idx) (q : dot_S512x128_S128x1_S512x1_1_0_0_1_n_n.contr.Idx) : (dot_S512x128_S128x1_S512x1_1_0_0_1_n_n.rhsIdx i q 1).val = (i 1).val := by
  unfold DotDims.rhsIdx
  rw [dif_neg (show ¬(1 : Fin S128x1.rank) ∈ dot_S512x128_S128x1_S512x1_1_0_0_1_n_n.rhsBatch by decide), dif_pos (show (1 : Fin S128x1.rank) ∈ dot_S512x128_S128x1_S512x1_1_0_0_1_n_n.rhsNonContracting by decide)]
  rfl
theorem outProduct {φ₁ φ₂ : FTy} (x : FVec Ideal S512x128 φ₁) (w : FVec Ideal S128x1 φ₂) (p : Fin 512) (q : Fin 1) :
    matmul dot_S512x128_S128x1_S512x1_1_0_0_1_n_n none x w (constant (F := Ideal) S512x1 .f32 0x00000000#32) (ix2 p q)
      = ∑ k : Fin 128, x (ix2 p k) * w (ix2 k q) := by
  refine (Ideal.matmul_constant_zero_apply dot_S512x128_S128x1_S512x1_1_0_0_1_n_n none x w (ix2 p q)).trans ?_
  rw [← Equiv.sum_comp (contrEquiv1 dot_S512x128_S128x1_S512x1_1_0_0_1_n_n 128 rfl rfl).symm]
  refine Finset.sum_congr rfl fun k _ => ?_
  have hk := contrEquiv1_symm_val dot_S512x128_S128x1_S512x1_1_0_0_1_n_n 128 rfl rfl k
  have el : dot_S512x128_S128x1_S512x1_1_0_0_1_n_n.lhsIdx (ix2 p q) ((contrEquiv1 dot_S512x128_S128x1_S512x1_1_0_0_1_n_n 128 rfl rfl).symm k) = ix2 p k := funext fun a => Fin.ext (by
    match a with
    | ⟨0, _⟩ => exact outProduct_lhs0 _ _
    | ⟨1, _⟩ => exact (dot_S512x128_S128x1_S512x1_1_0_0_1_n_n.lhsIdx_val_of_single rfl _ _).trans hk)
  have er : dot_S512x128_S128x1_S512x1_1_0_0_1_n_n.rhsIdx (ix2 p q) ((contrEquiv1 dot_S512x128_S128x1_S512x1_1_0_0_1_n_n 128 rfl rfl).symm k) = ix2 k q := funext fun a => Fin.ext (by
    match a with
    | ⟨0, _⟩ => exact (dot_S512x128_S128x1_S512x1_1_0_0_1_n_n.rhsIdx_val_of_single rfl _ _).trans hk
    | ⟨1, _⟩ => exact outProduct_rhs1 _ _)
  rw [el, er]

/-- Layer 1's block body at a block coordinate `(p, q)`: the two block products summed, the bias row added,
    clamped below at zero.  (Rounding the operands to the narrower format is the identity on exact values.) -/
theorem layer1_block (a h : Vec Ideal S2000x128 .f32) (wrel wroot : Vec Ideal S128x128 .f32) (b : Vec Ideal S128 .f32)
    (p : Fin 2000) (q : Fin 128) :
    k0_pay1 (F := Ideal) a h wrel wroot b (ix2 p q)
      = max ((∑ k : Fin 128, a (ix2 p k) * wrel (ix2 k q)) + (∑ k : Fin 128, h (ix2 p k) * wroot (ix2 k q)) + b (ix1 q))
          (Ideal.ofBits .f32 0x00000000#32) := by
  have e : k0_pay1 (F := Ideal) a h wrel wroot b
      = maximumf (addf (addf (matmul (φ₁ := .bf16) (φ₂ := .bf16) dot_S2000x128_S128x128_S2000x128_1_0_0_1_n_n none a wrel (constant (F := Ideal) S2000x128 .f32 0x00000000#32))
            (matmul (φ₁ := .bf16) (φ₂ := .bf16) dot_S2000x128_S128x128_S2000x128_1_0_0_1_n_n none h wroot (constant (F := Ideal) S2000x128 .f32 0x00000000#32)))
          (broadcastTo S2000x128 (shapeCast S1x128 b shapeCasts_S128_S1x128) broadcasts_S1x128_S2000x128))
        (broadcast S2000x128 (Scalar.ofBits (F := Ideal) .f32 0x00000000#32)) := by
    unfold k0_pay1
    simp only [shapeCast_self]
    rfl
  rw [e]
  show max ((matmul (φ₁ := .bf16) (φ₂ := .bf16) dot_S2000x128_S128x128_S2000x128_1_0_0_1_n_n none a wrel (constant (F := Ideal) S2000x128 .f32 0x00000000#32) (ix2 p q)
        + matmul (φ₁ := .bf16) (φ₂ := .bf16) dot_S2000x128_S128x128_S2000x128_1_0_0_1_n_n none h wroot (constant (F := Ideal) S2000x128 .f32 0x00000000#32) (ix2 p q))
      + broadcastTo S2000x128 (shapeCast S1x128 b shapeCasts_S128_S1x128) broadcasts_S1x128_S2000x128 (ix2 p q))
    (Ideal.ofBits .f32 0x00000000#32) = _
  rw [blockProduct, blockProduct, broadcastTo_1b_ab_apply, shapeCast_a_1a_apply]

/-- Layer 2's block body at a block coordinate `(p, q)`: the two block products summed, the bias row added,
    clamped below at zero.  (Rounding the operands to the narrower format is the identity on exact values.) -/
theorem layer2_block (a h : Vec Ideal S2000x128 .f32) (wrel wroot : Vec Ideal S128x128 .f32) (b : Vec Ideal S128 .f32)
    (p : Fin 2000) (q : Fin 128) :
    k1_pay1 (F := Ideal) a h wrel wroot b (ix2 p q)
      = max ((∑ k : Fin 128, a (ix2 p k) * wrel (ix2 k q)) + (∑ k : Fin 128, h (ix2 p k) * wroot (ix2 k q)) + b (ix1 q))
          (Ideal.ofBits .f32 0x00000000#32) := by
  have e : k1_pay1 (F := Ideal) a h wrel wroot b
      = maximumf (addf (addf (matmul (φ₁ := .bf16) (φ₂ := .bf16) dot_S2000x128_S128x128_S2000x128_1_0_0_1_n_n none a wrel (constant (F := Ideal) S2000x128 .f32 0x00000000#32))
            (matmul (φ₁ := .bf16) (φ₂ := .bf16) dot_S2000x128_S128x128_S2000x128_1_0_0_1_n_n none h wroot (constant (F := Ideal) S2000x128 .f32 0x00000000#32)))
          (broadcastTo S2000x128 (shapeCast S1x128 b shapeCasts_S128_S1x128) broadcasts_S1x128_S2000x128))
        (broadcast S2000x128 (Scalar.ofBits (F := Ideal) .f32 0x00000000#32)) := by
    unfold k1_pay1
    simp only [shapeCast_self]
    rfl
  rw [e]
  show max ((matmul (φ₁ := .bf16) (φ₂ := .bf16) dot_S2000x128_S128x128_S2000x128_1_0_0_1_n_n none a wrel (constant (F := Ideal) S2000x128 .f32 0x00000000#32) (ix2 p q)
        + matmul (φ₁ := .bf16) (φ₂ := .bf16) dot_S2000x128_S128x128_S2000x128_1_0_0_1_n_n none h wroot (constant (F := Ideal) S2000x128 .f32 0x00000000#32) (ix2 p q))
      + broadcastTo S2000x128 (shapeCast S1x128 b shapeCasts_S128_S1x128) broadcasts_S1x128_S2000x128 (ix2 p q))
    (Ideal.ofBits .f32 0x00000000#32) = _
  rw [blockProduct, blockProduct, broadcastTo_1b_ab_apply, shapeCast_a_1a_apply]

/-- Layer 3's block body at a block coordinate `(p, q)`: the two block products summed, the bias row added,
    clamped below at zero.  (Rounding the operands to the narrower format is the identity on exact values.) -/
theorem layer3_block (a h : Vec Ideal S2000x128 .f32) (wrel wroot : Vec Ideal S128x128 .f32) (b : Vec Ideal S128 .f32)
    (p : Fin 2000) (q : Fin 128) :
    k2_pay1 (F := Ideal) a h wrel wroot b (ix2 p q)
      = max ((∑ k : Fin 128, a (ix2 p k) * wrel (ix2 k q)) + (∑ k : Fin 128, h (ix2 p k) * wroot (ix2 k q)) + b (ix1 q))
          (Ideal.ofBits .f32 0x00000000#32) := by
  have e : k2_pay1 (F := Ideal) a h wrel wroot b
      = maximumf (addf (addf (matmul (φ₁ := .bf16) (φ₂ := .bf16) dot_S2000x128_S128x128_S2000x128_1_0_0_1_n_n none a wrel (constant (F := Ideal) S2000x128 .f32 0x00000000#32))
            (matmul (φ₁ := .bf16) (φ₂ := .bf16) dot_S2000x128_S128x128_S2000x128_1_0_0_1_n_n none h wroot (constant (F := Ideal) S2000x128 .f32 0x00000000#32)))
          (broadcastTo S2000x128 (shapeCast S1x128 b shapeCasts_S128_S1x128) broadcasts_S1x128_S2000x128))
        (broadcast S2000x128 (Scalar.ofBits (F := Ideal) .f32 0x00000000#32)) := by
    unfold k2_pay1
    simp only [shapeCast_self]
    rfl
  rw [e]
  show max ((matmul (φ₁ := .bf16) (φ₂ := .bf16) dot_S2000x128_S128x128_S2000x128_1_0_0_1_n_n none a wrel (constant (F := Ideal) S2000x128 .f32 0x00000000#32) (ix2 p q)
        + matmul (φ₁ := .bf16) (φ₂ := .bf16) dot_S2000x128_S128x128_S2000x128_1_0_0_1_n_n none h wroot (constant (F := Ideal) S2000x128 .f32 0x00000000#32) (ix2 p q))
      + broadcastTo S2000x128 (shapeCast S1x128 b shapeCasts_S128_S1x128) broadcasts_S1x128_S2000x128 (ix2 p q))
    (Ideal.ofBits .f32 0x00000000#32) = _
  rw [blockProduct, blockProduct, broadcastTo_1b_ab_apply, shapeCast_a_1a_apply]

/-- The head's body at `(p, 0)`: the hidden row `max (x·w1 + b1, 0)` times the output column, plus the output bias. -/
theorem head_block (x : Vec Ideal S512x128 .f32) (w1 : Vec Ideal S128x128 .f32) (b1 : Vec Ideal S128 .f32)
    (w2 : Vec Ideal S128x1 .f32) (b2 : Vec Ideal S1 .f32) (p : Fin 512) (q : Fin 1) :
    k3_pay1 (F := Ideal) x w1 b1 w2 b2 (ix2 p q)
      = (∑ k : Fin 128, max ((∑ j : Fin 128, x (ix2 p j) * w1 (ix2 j k)) + b1 (ix1 k)) (Ideal.ofBits .f32 0x00000000#32) * w2 (ix2 k q))
        + b2 (ix1 q) := by
  have e : k3_pay1 (F := Ideal) x w1 b1 w2 b2
      = addf (matmul (φ₁ := .bf16) (φ₂ := .bf16) dot_S512x128_S128x1_S512x1_1_0_0_1_n_n none
            (maximumf (addf (matmul (φ₁ := .bf16) (φ₂ := .bf16) dot_S512x128_S128x128_S512x128_1_0_0_1_n_n none x w1 (constant (F := Ideal) S512x128 .f32 0x00000000#32))
                (broadcastTo S512x128 (shapeCast S1x128 b1 shapeCasts_S128_S1x128) broadcasts_S1x128_S512x128))
              (broadcast S512x128 (Scalar.ofBits (F := Ideal) .f32 0x00000000#32)))
            w2 (constant (F := Ideal) S512x1 .f32 0x00000000#32))
          (broadcastTo S512x1 (shapeCast S1x1 b2 shapeCasts_S1_S1x1) broadcasts_S1x1_S512x1) := by
    unfold k3_pay1
    simp only [shapeCast_self]
    rfl
  rw [e]
  show matmul (φ₁ := .bf16) (φ₂ := .bf16) dot_S512x128_S128x1_S512x1_1_0_0_1_n_n none _ w2 (constant (F := Ideal) S512x1 .f32 0x00000000#32) (ix2 p q)
      + broadcastTo S512x1 (shapeCast S1x1 b2 shapeCasts_S1_S1x1) broadcasts_S1x1_S512x1 (ix2 p q) = _
  rw [outProduct, broadcastTo_1b_ab_apply, shapeCast_a_1a_apply]
  have hq : q = 0 := Fin.ext (by omega)
  subst hq
  refine congrArg (· + b2 (ix1 (0 : Fin 1))) (Finset.sum_congr rfl fun k _ => ?_)
  refine congrArg (· * w2 (ix2 k (0 : Fin 1))) ?_
  show max (matmul (φ₁ := .bf16) (φ₂ := .bf16) dot_S512x128_S128x128_S512x128_1_0_0_1_n_n none x w1 (constant (F := Ideal) S512x128 .f32 0x00000000#32) (ix2 p k)
      + broadcastTo S512x128 (shapeCast S1x128 b1 shapeCasts_S128_S1x128) broadcasts_S1x128_S512x128 (ix2 p k)) (Ideal.ofBits .f32 0x00000000#32) = _
  rw [hiddenProduct, broadcastTo_1b_ab_apply, shapeCast_a_1a_apply]

end Cert.KernelIdeal.Bodies

end
-- ==== Proof.LayerSpec.lean ====
/-
  One graph-convolution layer and the pooled head as plain arithmetic on exact values, over literal index types.
  `layerAt A H W b W' r q = max (Σₖ A(r,k)·W(k,q) + Σₖ H(r,k)·W'(k,q) + b(q), 0)` — the aggregated messages through
  one weight matrix, the node's own features through the other, a bias row, a clamp below at zero —, and
  `headAt X W₁ b₁ W₂ b₂ p q = Σₖ max (Σⱼ X(p,j)·W₁(j,k) + b₁(k), 0)·W₂(k,q) + b₂(q)`.
  The weight matrices here are the ones the products actually contract with (inputs × outputs).
-/
import Idealize.ShloMosaic.PureOps.Ideal
import Idealize.ShloMosaic.Lib.ValueIdx

noncomputable section

namespace GraphConvSpec

open Idealize.ShloMosaic Idealize.ShloMosaic.ValueIdx

/-- The value every clamp compares with: the all-zero word, read as an exact value. -/
abbrev zeroWord : EReal := Ideal.ofBits .f32 0x00000000#32

/-- One layer at node `r`, output feature `q`. -/
def layerAt (A H : (⟨2, ![50000, 128]⟩ : Shape).Idx → EReal) (W : (⟨2, ![128, 128]⟩ : Shape).Idx → EReal)
    (b : (⟨1, ![128]⟩ : Shape).Idx → EReal) (W' : (⟨2, ![128, 128]⟩ : Shape).Idx → EReal) (r : Fin 50000) (q : Fin 128) : EReal :=
  max ((∑ k : Fin 128, A (ix2 r k) * W (ix2 k q)) + (∑ k : Fin 128, H (ix2 r k) * W' (ix2 k q)) + b (ix1 q)) zeroWord

/-- One layer as a function of the whole arrays. -/
def layerOf (A H : (⟨2, ![50000, 128]⟩ : Shape).Idx → EReal) (W : (⟨2, ![128, 128]⟩ : Shape).Idx → EReal)
    (b : (⟨1, ![128]⟩ : Shape).Idx → EReal) (W' : (⟨2, ![128, 128]⟩ : Shape).Idx → EReal) :
    (⟨2, ![50000, 128]⟩ : Shape).Idx → EReal :=
  fun i => layerAt A H W b W' ⟨(i 0).val, (i 0).isLt⟩ ⟨(i 1).val, (i 1).isLt⟩

theorem layerOf_ix2 (A H : (⟨2, ![50000, 128]⟩ : Shape).Idx → EReal) (W : (⟨2, ![128, 128]⟩ : Shape).Idx → EReal)
    (b : (⟨1, ![128]⟩ : Shape).Idx → EReal) (W' : (⟨2, ![128, 128]⟩ : Shape).Idx → EReal) (r : Fin 50000) (q : Fin 128) :
    layerOf A H W b W' (ix2 r q) = layerAt A H W b W' r q := rfl

/-- The head at graph `p` (its one output column `q`). -/
def headAt (X : (⟨2, ![512, 128]⟩ : Shape).Idx → EReal) (W₁ : (⟨2, ![128, 128]⟩ : Shape).Idx → EReal)
    (b₁ : (⟨1, ![128]⟩ : Shape).Idx → EReal) (W₂ : (⟨2, ![128, 1]⟩ : Shape).Idx → EReal) (b₂ : (⟨1, ![1]⟩ : Shape).Idx → EReal)
    (p : Fin 512) (q : Fin 1) : EReal :=
  (∑ k : Fin 128, max ((∑ j : Fin 128, X (ix2 p j) * W₁ (ix2 j k)) + b₁ (ix1 k)) zeroWord * W₂ (ix2 k q)) + b₂ (ix1 q)

/-- The head as a function of the whole arrays. -/
def headOf (X : (⟨2, ![512, 128]⟩ : Shape).Idx → EReal) (W₁ : (⟨2, ![128, 128]⟩ : Shape).Idx → EReal)
    (b₁ : (⟨1, ![128]⟩ : Shape).Idx → EReal) (W₂ : (⟨2, ![128, 1]⟩ : Shape).Idx → EReal) (b₂ : (⟨1, ![1]⟩ : Shape).Idx → EReal) :
    (⟨2, ![512, 1]⟩ : Shape).Idx → EReal :=
  fun i => headAt X W₁ b₁ W₂ b₂ ⟨(i 0).val, (i 0).isLt⟩ ⟨(i 1).val, (i 1).isLt⟩

theorem headOf_ix2 (X : (⟨2, ![512, 128]⟩ : Shape).Idx → EReal) (W₁ : (⟨2, ![128, 128]⟩ : Shape).Idx → EReal)
    (b₁ : (⟨1, ![128]⟩ : Shape).Idx → EReal) (W₂ : (⟨2, ![128, 1]⟩ : Shape).Idx → EReal) (b₂ : (⟨1, ![1]⟩ : Shape).Idx → EReal)
    (p : Fin 512) (q : Fin 1) : headOf X W₁ b₁ W₂ b₂ (ix2 p q) = headAt X W₁ b₁ W₂ b₂ p q := rfl

end GraphConvSpec

end
-- ==== Proof.Layer1.lean ====
/-
  Pallas region 0 (graph-convolution layer 1) read back as ONE function of the arrays it finds.
  The grid has 25 points; point `t` takes rows `2000·t … 2000·t + 1999` of the aggregated messages and of the
  node features, the whole (transposed) weight matrices and bias row, and writes the same rows of the result.
  The blocks tile the 50000 rows, so the array after the region is, index by index,
  `max (A·Wrel + H·Wroot + b, 0)`.
-/
import proofs.«117946_j52020643889507_1_alg».proof.Proof.Gen.KernelIdeal.Frame
import proofs.«117946_j52020643889507_1_alg».proof.Proof.Bodies
import proofs.«117946_j52020643889507_1_alg».proof.Proof.LayerSpec

set_option maxRecDepth 16384

noncomputable section

namespace Cert.KernelIdeal.Layers

open Cert.KernelIdeal Cert.KernelIdeal.Gen Idealize.ShloMosaic Idealize.ShloMosaic.TcCoe Idealize.SL.Sem Idealize.ShloMosaic.ValueIdx
open Idealize.ShloMosaic.Pipeline (Dat)
open GraphConvSpec

variable (V : (c : Dev nD) → (b : Ref sig .tc) → Buf (Elt Ideal) ((c : Thread nD τ).loc b))

/-- The all-zero offsets of a whole-block rectangle, as functions. -/
theorem zeroOffsets2_1 : (![0, 0] : Fin 2 → Nat) = fun _ => 0 := funext fun a => by fin_cases a <;> rfl
theorem zeroOffsets1_1 : (![0] : Fin 1 → Nat) = fun _ => 0 := funext fun a => by fin_cases a <;> rfl

/-! ## Layer 1 (pallas region 0) -/

/-- The printed index maps over the 25 grid points: the aggregated rows, the node rows and the output move together,
    block `t` on the row axis; the two weight matrices and the bias row stay at block 0. -/
theorem maps0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of block `t` is row `t·2000 + p` of the array. -/
theorem rowOf0_lt (t : Fin cfg0.N) (p : Fin 2000) : t.val * 2000 + p.val < 50000 := by
  have ht : t.val < 25 := lt_of_lt_of_eq t.isLt (show cfg0.N = 25 from N_0)
  have hp := p.isLt
  omega

theorem readAgg0 (c : Dev nD) (t : Fin cfg0.N) (p : Fin 2000) (k : Fin 128) :
    iblk0 V c 0 t (ix2 p k) = V c main_v18 (ix2 ⟨t.val * 2000 + p.val, rowOf0_lt t p⟩ k) := by
  obtain ⟨e0, e1, -⟩ := maps0 t
  show V c main_v18 (((cfg0.win 0).blk t).view.emb (ix2 p k)) = _
  refine congrArg (V c main_v18) (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 128 + 1 * k.val = k.val; rw [e1]; omega

theorem readNodes0 (c : Dev nD) (t : Fin cfg0.N) (p : Fin 2000) (k : Fin 128) :
    iblk0 V c 1 t (ix2 p k) = V c main_arg0 (ix2 ⟨t.val * 2000 + p.val, rowOf0_lt t p⟩ k) := by
  obtain ⟨-, -, e0, e1, -⟩ := maps0 t
  show V c main_arg0 (((cfg0.win 1).blk t).view.emb (ix2 p k)) = _
  refine congrArg (V c main_arg0) (funext fun a => Fin.ext ?_)
  match a with
  | ⟨0, _⟩ => show win0_1.index t (0 : Fin 2) * 2000 + 1 * p.val = t.val * 2000 + p.val; rw [e0]; omega
  | ⟨1, _⟩ => show win0_1.index t (1 : Fin 2) * 128 + 1 * k.val = k.val; rw [e1]; omega

theorem readWrel0 (c : Dev nD) (t : Fin cfg0.N) (k q : Fin 128) :
    iblk0 V c 2 t (ix2 k q) = V c main_v4 (ix2 k q) := by
  obtain ⟨-, -, -, -, e0, e1, -⟩ := maps0 t
  show V c main_v4 (((cfg0.win 2).blk t).view.emb (ix2 k q)) = _
  refine congrArg (V c main_v4) (funext fun a => Fin.ext ?_)
  match a with
  | ⟨0, _⟩ => show win0_2.index t (0 : Fin 2) * 128 + 1 * k.val = k.val; rw [e0]; omega
  | ⟨1, _⟩ => show win0_2.index t (1 : Fin 2) * 128 + 1 * q.val = q.val; rw [e1]; omega

theorem readBias0 (c : Dev nD) (t : Fin cfg0.N) (q : Fin 128) :
    iblk0 V c 3 t (ix1 q) = V c main_arg5 (ix1 q) := by
  obtain ⟨-, -, -, -, -, -, e0, -⟩ := maps0 t
  show V c main_arg5 (((cfg0.win 3).blk t).view.emb (ix1 q)) = _
  refine congrArg (V c main_arg5) (funext fun a => Fin.ext ?_)
  match a with
  | ⟨0, _⟩ => show win0_3.index t (0 : Fin 1) * 128 + 1 * q.val = q.val; rw [e0]; omega

theorem readWroot0 (c : Dev nD) (t : Fin cfg0.N) (k q : Fin 128) :
    iblk0 V c 4 t (ix2 k q) = V c main_v5 (ix2 k q) := by
  obtain ⟨-, -, -, -, -, -, -, e0, e1, -⟩ := maps0 t
  show V c main_v5 (((cfg0.win 4).blk t).view.emb (ix2 k q)) = _
  refine congrArg (V c main_v5) (funext fun a => Fin.ext ?_)
  match a with
  | ⟨0, _⟩ => show win0_4.index t (0 : Fin 2) * 128 + 1 * k.val = k.val; rw [e0]; omega
  | ⟨1, _⟩ => show win0_4.index t (1 : Fin 2) * 128 + 1 * q.val = q.val; rw [e1]; omega

/-- What point `t` writes back is block `t` of the layer's whole-array function of the region's entry contents. -/
theorem flushed0 (c : Dev nD) (t : Fin cfg0.N) :
    (dat0 V c).flushed 5 t = ((cfg0.win 5).blk t).view.read (Elt Ideal)
      (layerOf (V c main_v18) (V c main_arg0) (V c main_v4) (V c main_arg5) (V c main_v5)) := by
  show (cfg0.win 5).cut (grid0.coords t) ((dat0 V c).after 5 t) = _
  rw [after0_5]
  unfold out0_5
  rw [View.canon_unit_zero zeroOffsets2_1]
  simp only [View.ld_unit_zero (S := S2000x128) zeroOffsets2_1, View.ld_unit_zero (S := S128x128) zeroOffsets2_1, View.ld_unit_zero (S := S128) zeroOffsets1_1]
  funext y
  obtain ⟨p, q, rfl⟩ : ∃ (p : Fin 2000) (q : Fin 128), y = ix2 p q := ⟨y 0, y 1, eq_ix2 y⟩
  obtain ⟨-, -, -, -, -, -, -, -, -, e0, e1⟩ := maps0 t
  have hemb : ((cfg0.win 5).blk t).view.emb (ix2 p q) = ix2 ⟨t.val * 2000 + p.val, rowOf0_lt t p⟩ q := by
    funext a; apply Fin.ext
    match a with
    | ⟨0, _⟩ => show win0_5.index t (0 : Fin 2) * 2000 + 1 * p.val = t.val * 2000 + p.val; rw [e0]; omega
    | ⟨1, _⟩ => show win0_5.index t (1 : Fin 2) * 128 + 1 * q.val = q.val; rw [e1]; omega
  show k0_pay1 (F := Ideal) (iblk0 V c 0 t) (iblk0 V c 1 t) (iblk0 V c 2 t) (iblk0 V c 4 t) (iblk0 V c 3 t) (ix2 p q)
    = layerOf (V c main_v18) (V c main_arg0) (V c main_v4) (V c main_arg5) (V c main_v5) (((cfg0.win 5).blk t).view.emb (ix2 p q))
  rw [hemb]
  refine (Bodies.layer1_block (iblk0 V c 0 t) (iblk0 V c 1 t) (iblk0 V c 2 t) (iblk0 V c 4 t) (iblk0 V c 3 t) p q).trans ?_
  simp only [readAgg0, readNodes0, readWrel0, readBias0, readWroot0]
  rfl

/-- An index of the array is in point `t`'s block iff each coordinate is in the block's range on its axis. -/
theorem mem_block0 (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v19).slice (win0_5.rect t)).set ↔ _
  rw [View.set_slice_whole, Rect.mem_set_unit]
  exact Iff.rfl

/-- Every row lies in the block of the point `row / 2000`. -/
theorem point_onto0 : ∀ q0 : Fin 25, ∃ t : Fin cfg0.N, t.val = q0.val :=
  (by decide +kernel : ∀ q0 : Fin 25, ∃ t : Fin grid0.N, t.val = q0.val)

theorem covered0 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := point_onto0 ⟨(i 0).val / 2000, by omega⟩
  have ht' : t.val = (i 0).val / 2000 := ht
  obtain ⟨-, -, -, -, -, -, -, -, -, e0, e1⟩ := maps0 t
  refine ⟨t, flush0_5 t, ?_⟩
  rw [mem_block0]
  intro a
  match a with
  | ⟨0, _⟩ => show win0_5.index t (0 : Fin 2) * 2000 ≤ (i 0).val ∧ (i 0).val < win0_5.index t (0 : Fin 2) * 2000 + 2000; rw [e0]; omega
  | ⟨1, _⟩ => show win0_5.index t (1 : Fin 2) * 128 ≤ (i 1).val ∧ (i 1).val < win0_5.index t (1 : Fin 2) * 128 + 128; rw [e1]; omega

/-- THE ARRAY layer 1 leaves: the layer's function of the arrays the region found. -/
theorem layer1_array (c : Dev nD) :
    (dat0 V c).arrAt 5 cfg0.N = layerOf (V c main_v18) (V c main_arg0) (V c main_v4) (V c main_arg5) (V c main_v5) :=
  (dat0 V c).arrAt_eq_of_cover 5 _ (fun t _ => flushed0 V c t) (covered0)

end Cert.KernelIdeal.Layers

end
-- ==== Proof.Layer2.lean ====
/-
  Pallas region 1 (graph-convolution layer 2) read back as ONE function of the arrays it finds.
  The grid has 25 points; point `t` takes rows `2000·t … 2000·t + 1999` of the aggregated messages and of the
  node features, the whole (transposed) weight matrices and bias row, and writes the same rows of the result.
  The blocks tile the 50000 rows, so the array after the region is, index by index,
  `max (A·Wrel + H·Wroot + b, 0)`.
-/
import proofs.«117946_j52020643889507_1_alg».proof.Proof.Gen.KernelIdeal.Frame
import proofs.«117946_j52020643889507_1_alg».proof.Proof.Bodies
import proofs.«117946_j52020643889507_1_alg».proof.Proof.LayerSpec

set_option maxRecDepth 16384

noncomputable section

namespace Cert.KernelIdeal.Layers

open Cert.KernelIdeal Cert.KernelIdeal.Gen Idealize.ShloMosaic Idealize.ShloMosaic.TcCoe Idealize.SL.Sem Idealize.ShloMosaic.ValueIdx
open Idealize.ShloMosaic.Pipeline (Dat)
open GraphConvSpec

variable (V : (c : Dev nD) → (b : Ref sig .tc) → Buf (Elt Ideal) ((c : Thread nD τ).loc b))

/-- The all-zero offsets of a whole-block rectangle, as functions. -/
theorem zeroOffsets2_2 : (![0, 0] : Fin 2 → Nat) = fun _ => 0 := funext fun a => by fin_cases a <;> rfl
theorem zeroOffsets1_2 : (![0] : Fin 1 → Nat) = fun _ => 0 := funext fun a => by fin_cases a <;> rfl

/-! ## Layer 2 (pallas region 1) -/

/-- The printed index maps over the 25 grid points: the aggregated rows, the node rows and the output move together,
    block `t` on the row axis; the two weight matrices and the bias row stay at block 0. -/
theorem maps1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of block `t` is row `t·2000 + p` of the array. -/
theorem rowOf1_lt (t : Fin cfg1.N) (p : Fin 2000) : t.val * 2000 + p.val < 50000 := by
  have ht : t.val < 25 := lt_of_lt_of_eq t.isLt (show cfg1.N = 25 from N_1)
  have hp := p.isLt
  omega

theorem readAgg1 (c : Dev nD) (t : Fin cfg1.N) (p : Fin 2000) (k : Fin 128) :
    iblk1 V c 0 t (ix2 p k) = V c main_v40 (ix2 ⟨t.val * 2000 + p.val, rowOf1_lt t p⟩ k) := by
  obtain ⟨e0, e1, -⟩ := maps1 t
  show V c main_v40 (((cfg1.win 0).blk t).view.emb (ix2 p k)) = _
  refine congrArg (V c main_v40) (funext fun a => Fin.ext ?_)
  match a with
  | ⟨0, _⟩ => show win1_0.index t (0 : Fin 2) * 2000 + 1 * p.val = t.val * 2000 + p.val; rw [e0]; omega
  | ⟨1, _⟩ => show win1_0.index t (1 : Fin 2) * 128 + 1 * k.val = k.val; rw [e1]; omega

theorem readNodes1 (c : Dev nD) (t : Fin cfg1.N) (p : Fin 2000) (k : Fin 128) :
    iblk1 V c 1 t (ix2 p k) = V c main_v19 (ix2 ⟨t.val * 2000 + p.val, rowOf1_lt t p⟩ k) := by
  obtain ⟨-, -, e0, e1, -⟩ := maps1 t
  show V c main_v19 (((cfg1.win 1).blk t).view.emb (ix2 p k)) = _
  refine congrArg (V c main_v19) (funext fun a => Fin.ext ?_)
  match a with
  | ⟨0, _⟩ => show win1_1.index t (0 : Fin 2) * 2000 + 1 * p.val = t.val * 2000 + p.val; rw [e0]; omega
  | ⟨1, _⟩ => show win1_1.index t (1 : Fin 2) * 128 + 1 * k.val = k.val; rw [e1]; omega

theorem readWrel1 (c : Dev nD) (t : Fin cfg1.N) (k q : Fin 128) :
    iblk1 V c 2 t (ix2 k q) = V c main_v22 (ix2 k q) := by
  obtain ⟨-, -, -, -, e0, e1, -⟩ := maps1 t
  show V c main_v22 (((cfg1.win 2).blk t).view.emb (ix2 k q)) = _
  refine congrArg (V c main_v22) (funext fun a => Fin.ext ?_)
  match a with
  | ⟨0, _⟩ => show win1_2.index t (0 : Fin 2) * 128 + 1 * k.val = k.val; rw [e0]; omega
  | ⟨1, _⟩ => show win1_2.index t (1 : Fin 2) * 128 + 1 * q.val = q.val; rw [e1]; omega

theorem readBias1 (c : Dev nD) (t : Fin cfg1.N) (q : Fin 128) :
    iblk1 V c 3 t (ix1 q) = V c main_v24 (ix1 q) := by
  obtain ⟨-, -, -, -, -, -, e0, -⟩ := maps1 t
  show V c main_v24 (((cfg1.win 3).blk t).view.emb (ix1 q)) = _
  refine congrArg (V c main_v24) (funext fun a => Fin.ext ?_)
  match a with
  | ⟨0, _⟩ => show win1_3.index t (0 : Fin 1) * 128 + 1 * q.val = q.val; rw [e0]; omega

theorem readWroot1 (c : Dev nD) (t : Fin cfg1.N) (k q : Fin 128) :
    iblk1 V c 4 t (ix2 k q) = V c main_v27 (ix2 k q) := by
  obtain ⟨-, -, -, -, -, -, -, e0, e1, -⟩ := maps1 t
  show V c main_v27 (((cfg1.win 4).blk t).view.emb (ix2 k q)) = _
  refine congrArg (V c main_v27) (funext fun a => Fin.ext ?_)
  match a with
  | ⟨0, _⟩ => show win1_4.index t (0 : Fin 2) * 128 + 1 * k.val = k.val; rw [e0]; omega
  | ⟨1, _⟩ => show win1_4.index t (1 : Fin 2) * 128 + 1 * q.val = q.val; rw [e1]; omega

/-- What point `t` writes back is block `t` of the layer's whole-array function of the region's entry contents. -/
theorem flushed1 (c : Dev nD) (t : Fin cfg1.N) :
    (dat1 V c).flushed 5 t = ((cfg1.win 5).blk t).view.read (Elt Ideal)
      (layerOf (V c main_v40) (V c main_v19) (V c main_v22) (V c main_v24) (V c main_v27)) := by
  show (cfg1.win 5).cut (grid1.coords t) ((dat1 V c).after 5 t) = _
  rw [after1_5]
  unfold out1_5
  rw [View.canon_unit_zero zeroOffsets2_2]
  simp only [View.ld_unit_zero (S := S2000x128) zeroOffsets2_2, View.ld_unit_zero (S := S128x128) zeroOffsets2_2, View.ld_unit_zero (S := S128) zeroOffsets1_2]
  funext y
  obtain ⟨p, q, rfl⟩ : ∃ (p : Fin 2000) (q : Fin 128), y = ix2 p q := ⟨y 0, y 1, eq_ix2 y⟩
  obtain ⟨-, -, -, -, -, -, -, -, -, e0, e1⟩ := maps1 t
  have hemb : ((cfg1.win 5).blk t).view.emb (ix2 p q) = ix2 ⟨t.val * 2000 + p.val, rowOf1_lt t p⟩ q := by
    funext a; apply Fin.ext
    match a with
    | ⟨0, _⟩ => show win1_5.index t (0 : Fin 2) * 2000 + 1 * p.val = t.val * 2000 + p.val; rw [e0]; omega
    | ⟨1, _⟩ => show win1_5.index t (1 : Fin 2) * 128 + 1 * q.val = q.val; rw [e1]; omega
  show k1_pay1 (F := Ideal) (iblk1 V c 0 t) (iblk1 V c 1 t) (iblk1 V c 2 t) (iblk1 V c 4 t) (iblk1 V c 3 t) (ix2 p q)
    = layerOf (V c main_v40) (V c main_v19) (V c main_v22) (V c main_v24) (V c main_v27) (((cfg1.win 5).blk t).view.emb (ix2 p q))
  rw [hemb]
  refine (Bodies.layer2_block (iblk1 V c 0 t) (iblk1 V c 1 t) (iblk1 V c 2 t) (iblk1 V c 4 t) (iblk1 V c 3 t) p q).trans ?_
  simp only [readAgg1, readNodes1, readWrel1, readBias1, readWroot1]
  rfl

/-- An index of the array is in point `t`'s block iff each coordinate is in the block's range on its axis. -/
theorem mem_block1 (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v41).slice (win1_5.rect t)).set ↔ _
  rw [View.set_slice_whole, Rect.mem_set_unit]
  exact Iff.rfl

/-- Every row lies in the block of the point `row / 2000`. -/
theorem point_onto1 : ∀ q0 : Fin 25, ∃ t : Fin cfg1.N, t.val = q0.val :=
  (by decide +kernel : ∀ q0 : Fin 25, ∃ t : Fin grid1.N, t.val = q0.val)

theorem covered1 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := point_onto1 ⟨(i 0).val / 2000, by omega⟩
  have ht' : t.val = (i 0).val / 2000 := ht
  obtain ⟨-, -, -, -, -, -, -, -, -, e0, e1⟩ := maps1 t
  refine ⟨t, flush1_5 t, ?_⟩
  rw [mem_block1]
  intro a
  match a with
  | ⟨0, _⟩ => show win1_5.index t (0 : Fin 2) * 2000 ≤ (i 0).val ∧ (i 0).val < win1_5.index t (0 : Fin 2) * 2000 + 2000; rw [e0]; omega
  | ⟨1, _⟩ => show win1_5.index t (1 : Fin 2) * 128 ≤ (i 1).val ∧ (i 1).val < win1_5.index t (1 : Fin 2) * 128 + 128; rw [e1]; omega

/-- THE ARRAY layer 2 leaves: the layer's function of the arrays the region found. -/
theorem layer2_array (c : Dev nD) :
    (dat1 V c).arrAt 5 cfg1.N = layerOf (V c main_v40) (V c main_v19) (V c main_v22) (V c main_v24) (V c main_v27) :=
  (dat1 V c).arrAt_eq_of_cover 5 _ (fun t _ => flushed1 V c t) (covered1)

end Cert.KernelIdeal.Layers

end
-- ==== Proof.Layer3.lean ====
/-
  Pallas region 2 (graph-convolution layer 3) read back as ONE function of the arrays it finds.
  The grid has 25 points; point `t` takes rows `2000·t … 2000·t + 1999` of the aggregated messages and of the
  node features, the whole (transposed) weight matrices and bias row, and writes the same rows of the result.
  The blocks tile the 50000 rows, so the array after the region is, index by index,
  `max (A·Wrel + H·Wroot + b, 0)`.
-/
import proofs.«117946_j52020643889507_1_alg».proof.Proof.Gen.KernelIdeal.Frame
import proofs.«117946_j52020643889507_1_alg».proof.Proof.Bodies
import proofs.«117946_j52020643889507_1_alg».proof.Proof.LayerSpec

set_option maxRecDepth 16384

noncomputable section

namespace Cert.KernelIdeal.Layers

open Cert.KernelIdeal Cert.KernelIdeal.Gen Idealize.ShloMosaic Idealize.ShloMosaic.TcCoe Idealize.SL.Sem Idealize.ShloMosaic.ValueIdx
open Idealize.ShloMosaic.Pipeline (Dat)
open GraphConvSpec

variable (V : (c : Dev nD) → (b : Ref sig .tc) → Buf (Elt Ideal) ((c : Thread nD τ).loc b))

/-- The all-zero offsets of a whole-block rectangle, as functions. -/
theorem zeroOffsets2_3 : (![0, 0] : Fin 2 → Nat) = fun _ => 0 := funext fun a => by fin_cases a <;> rfl
theorem zeroOffsets1_3 : (![0] : Fin 1 → Nat) = fun _ => 0 := funext fun a => by fin_cases a <;> rfl

/-! ## Layer 3 (pallas region 2) -/

/-- The printed index maps over the 25 grid points: the aggregated rows, the node rows and the output move together,
    block `t` on the row axis; the two weight matrices and the bias row stay at block 0. -/
theorem maps2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `p` of block `t` is row `t·2000 + p` of the array. -/
theorem rowOf2_lt (t : Fin cfg2.N) (p : Fin 2000) : t.val * 2000 + p.val < 50000 := by
  have ht : t.val < 25 := lt_of_lt_of_eq t.isLt (show cfg2.N = 25 from N_2)
  have hp := p.isLt
  omega

theorem readAgg2 (c : Dev nD) (t : Fin cfg2.N) (p : Fin 2000) (k : Fin 128) :
    iblk2 V c 0 t (ix2 p k) = V c main_v62 (ix2 ⟨t.val * 2000 + p.val, rowOf2_lt t p⟩ k) := by
  obtain ⟨e0, e1, -⟩ := maps2 t
  show V c main_v62 (((cfg2.win 0).blk t).view.emb (ix2 p k)) = _
  refine congrArg (V c main_v62) (funext fun a => Fin.ext ?_)
  match a with
  | ⟨0, _⟩ => show win2_0.index t (0 : Fin 2) * 2000 + 1 * p.val = t.val * 2000 + p.val; rw [e0]; omega
  | ⟨1, _⟩ => show win2_0.index t (1 : Fin 2) * 128 + 1 * k.val = k.val; rw [e1]; omega

theorem readNodes2 (c : Dev nD) (t : Fin cfg2.N) (p : Fin 2000) (k : Fin 128) :
    iblk2 V c 1 t (ix2 p k) = V c main_v41 (ix2 ⟨t.val * 2000 + p.val, rowOf2_lt t p⟩ k) := by
  obtain ⟨-, -, e0, e1, -⟩ := maps2 t
  show V c main_v41 (((cfg2.win 1).blk t).view.emb (ix2 p k)) = _
  refine congrArg (V c main_v41) (funext fun a => Fin.ext ?_)
  match a with
  | ⟨0, _⟩ => show win2_1.index t (0 : Fin 2) * 2000 + 1 * p.val = t.val * 2000 + p.val; rw [e0]; omega
  | ⟨1, _⟩ => show win2_1.index t (1 : Fin 2) * 128 + 1 * k.val = k.val; rw [e1]; omega

theorem readWrel2 (c : Dev nD) (t : Fin cfg2.N) (k q : Fin 128) :
    iblk2 V c 2 t (ix2 k q) = V c main_v44 (ix2 k q) := by
  obtain ⟨-, -, -, -, e0, e1, -⟩ := maps2 t
  show V c main_v44 (((cfg2.win 2).blk t).view.emb (ix2 k q)) = _
  refine congrArg (V c main_v44) (funext fun a => Fin.ext ?_)
  match a with
  | ⟨0, _⟩ => show win2_2.index t (0 : Fin 2) * 128 + 1 * k.val = k.val; rw [e0]; omega
  | ⟨1, _⟩ => show win2_2.index t (1 : Fin 2) * 128 + 1 * q.val = q.val; rw [e1]; omega

theorem readBias2 (c : Dev nD) (t : Fin cfg2.N) (q : Fin 128) :
    iblk2 V c 3 t (ix1 q) = V c main_v46 (ix1 q) := by
  obtain ⟨-, -, -, -, -, -, e0, -⟩ := maps2 t
  show V c main_v46 (((cfg2.win 3).blk t).view.emb (ix1 q)) = _
  refine congrArg (V c main_v46) (funext fun a => Fin.ext ?_)
  match a with
  | ⟨0, _⟩ => show win2_3.index t (0 : Fin 1) * 128 + 1 * q.val = q.val; rw [e0]; omega

theorem readWroot2 (c : Dev nD) (t : Fin cfg2.N) (k q : Fin 128) :
    iblk2 V c 4 t (ix2 k q) = V c main_v49 (ix2 k q) := by
  obtain ⟨-, -, -, -, -, -, -, e0, e1, -⟩ := maps2 t
  show V c main_v49 (((cfg2.win 4).blk t).view.emb (ix2 k q)) = _
  refine congrArg (V c main_v49) (funext fun a => Fin.ext ?_)
  match a with
  | ⟨0, _⟩ => show win2_4.index t (0 : Fin 2) * 128 + 1 * k.val = k.val; rw [e0]; omega
  | ⟨1, _⟩ => show win2_4.index t (1 : Fin 2) * 128 + 1 * q.val = q.val; rw [e1]; omega

/-- What point `t` writes back is block `t` of the layer's whole-array function of the region's entry contents. -/
theorem flushed2 (c : Dev nD) (t : Fin cfg2.N) :
    (dat2 V c).flushed 5 t = ((cfg2.win 5).blk t).view.read (Elt Ideal)
      (layerOf (V c main_v62) (V c main_v41) (V c main_v44) (V c main_v46) (V c main_v49)) := by
  show (cfg2.win 5).cut (grid2.coords t) ((dat2 V c).after 5 t) = _
  rw [after2_5]
  unfold out2_5
  rw [View.canon_unit_zero zeroOffsets2_3]
  simp only [View.ld_unit_zero (S := S2000x128) zeroOffsets2_3, View.ld_unit_zero (S := S128x128) zeroOffsets2_3, View.ld_unit_zero (S := S128) zeroOffsets1_3]
  funext y
  obtain ⟨p, q, rfl⟩ : ∃ (p : Fin 2000) (q : Fin 128), y = ix2 p q := ⟨y 0, y 1, eq_ix2 y⟩
  obtain ⟨-, -, -, -, -, -, -, -, -, e0, e1⟩ := maps2 t
  have hemb : ((cfg2.win 5).blk t).view.emb (ix2 p q) = ix2 ⟨t.val * 2000 + p.val, rowOf2_lt t p⟩ q := by
    funext a; apply Fin.ext
    match a with
    | ⟨0, _⟩ => show win2_5.index t (0 : Fin 2) * 2000 + 1 * p.val = t.val * 2000 + p.val; rw [e0]; omega
    | ⟨1, _⟩ => show win2_5.index t (1 : Fin 2) * 128 + 1 * q.val = q.val; rw [e1]; omega
  show k2_pay1 (F := Ideal) (iblk2 V c 0 t) (iblk2 V c 1 t) (iblk2 V c 2 t) (iblk2 V c 4 t) (iblk2 V c 3 t) (ix2 p q)
    = layerOf (V c main_v62) (V c main_v41) (V c main_v44) (V c main_v46) (V c main_v49) (((cfg2.win 5).blk t).view.emb (ix2 p q))
  rw [hemb]
  refine (Bodies.layer3_block (iblk2 V c 0 t) (iblk2 V c 1 t) (iblk2 V c 2 t) (iblk2 V c 4 t) (iblk2 V c 3 t) p q).trans ?_
  simp only [readAgg2, readNodes2, readWrel2, readBias2, readWroot2]
  rfl

/-- An index of the array is in point `t`'s block iff each coordinate is in the block's range on its axis. -/
theorem mem_block2 (t : Fin cfg2.N) (i : S50000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v63).slice (win2_5.rect t)).set ↔ _
  rw [View.set_slice_whole, Rect.mem_set_unit]
  exact Iff.rfl

/-- Every row lies in the block of the point `row / 2000`. -/
theorem point_onto2 : ∀ q0 : Fin 25, ∃ t : Fin cfg2.N, t.val = q0.val :=
  (by decide +kernel : ∀ q0 : Fin 25, ∃ t : Fin grid2.N, t.val = q0.val)

theorem covered2 (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, ht⟩ := point_onto2 ⟨(i 0).val / 2000, by omega⟩
  have ht' : t.val = (i 0).val / 2000 := ht
  obtain ⟨-, -, -, -, -, -, -, -, -, e0, e1⟩ := maps2 t
  refine ⟨t, flush2_5 t, ?_⟩
  rw [mem_block2]
  intro a
  match a with
  | ⟨0, _⟩ => show win2_5.index t (0 : Fin 2) * 2000 ≤ (i 0).val ∧ (i 0).val < win2_5.index t (0 : Fin 2) * 2000 + 2000; rw [e0]; omega
  | ⟨1, _⟩ => show win2_5.index t (1 : Fin 2) * 128 ≤ (i 1).val ∧ (i 1).val < win2_5.index t (1 : Fin 2) * 128 + 128; rw [e1]; omega

/-- THE ARRAY layer 3 leaves: the layer's function of the arrays the region found. -/
theorem layer3_array (c : Dev nD) :
    (dat2 V c).arrAt 5 cfg2.N = layerOf (V c main_v62) (V c main_v41) (V c main_v44) (V c main_v46) (V c main_v49) :=
  (dat2 V c).arrAt_eq_of_cover 5 _ (fun t _ => flushed2 V c t) (covered2)

end Cert.KernelIdeal.Layers

end
-- ==== Proof.HeadRegion.lean ====
/-
  Pallas region 3 (the pooled two-layer head) read back as ONE function of the arrays it finds.
  The grid has one point; every window's block is its whole array, so the result array after the region is,
  index by index, `max (P·W₁ + b₁, 0)·W₂ + b₂` of the pooled rows `P`, the (transposed) weights and the biases.
-/
import proofs.«117946_j52020643889507_1_alg».proof.Proof.Gen.KernelIdeal.Frame
import proofs.«117946_j52020643889507_1_alg».proof.Proof.Bodies
import proofs.«117946_j52020643889507_1_alg».proof.Proof.LayerSpec

set_option maxRecDepth 16384

noncomputable section

namespace Cert.KernelIdeal.Layers

open Cert.KernelIdeal Cert.KernelIdeal.Gen Idealize.ShloMosaic Idealize.ShloMosaic.TcCoe Idealize.SL.Sem Idealize.ShloMosaic.ValueIdx
open Idealize.ShloMosaic.Pipeline (Dat)
open GraphConvSpec

variable (V : (c : Dev nD) → (b : Ref sig .tc) → Buf (Elt Ideal) ((c : Thread nD τ).loc b))

theorem zeroOffsets2_head : (![0, 0] : Fin 2 → Nat) = fun _ => 0 := funext fun a => by fin_cases a <;> rfl
theorem zeroOffsets1_head : (![0] : Fin 1 → Nat) = fun _ => 0 := funext fun a => by fin_cases a <;> rfl

/-- The printed index maps at the one grid point: every window sits at block 0 on every axis. -/
theorem maps3 : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = 0 ∧ win3_3.index t (1 : Fin 2) = 0
    ∧ win3_4.index t (0 : Fin 1) = 0
    ∧ win3_5.index t (0 : Fin 2) = 0 ∧ win3_5.index t (1 : Fin 2) = 0 :=
  (by decide +kernel : ∀ t : Fin grid3.N, _)

theorem readPooled (c : Dev nD) (t : Fin cfg3.N) (p : Fin 512) (k : Fin 128) :
    iblk3 V c 0 t (ix2 p k) = V c main_v66 (ix2 p k) := by
  obtain ⟨e0, e1, -⟩ := maps3 t
  show V c main_v66 (((cfg3.win 0).blk t).view.emb (ix2 p k)) = _
  refine congrArg (V c main_v66) (funext fun a => Fin.ext ?_)
  match a with
  | ⟨0, _⟩ => show win3_0.index t (0 : Fin 2) * 512 + 1 * p.val = p.val; rw [e0]; omega
  | ⟨1, _⟩ => show win3_0.index t (1 : Fin 2) * 128 + 1 * k.val = k.val; rw [e1]; omega

theorem readW1 (c : Dev nD) (t : Fin cfg3.N) (j k : Fin 128) :
    iblk3 V c 1 t (ix2 j k) = V c main_v67 (ix2 j k) := by
  obtain ⟨-, -, e0, e1, -⟩ := maps3 t
  show V c main_v67 (((cfg3.win 1).blk t).view.emb (ix2 j k)) = _
  refine congrArg (V c main_v67) (funext fun a => Fin.ext ?_)
  match a with
  | ⟨0, _⟩ => show win3_1.index t (0 : Fin 2) * 128 + 1 * j.val = j.val; rw [e0]; omega
  | ⟨1, _⟩ => show win3_1.index t (1 : Fin 2) * 128 + 1 * k.val = k.val; rw [e1]; omega

theorem readB1 (c : Dev nD) (t : Fin cfg3.N) (k : Fin 128) :
    iblk3 V c 2 t (ix1 k) = V c main_arg11 (ix1 k) := by
  obtain ⟨-, -, -, -, e0, -⟩ := maps3 t
  show V c main_arg11 (((cfg3.win 2).blk t).view.emb (ix1 k)) = _
  refine congrArg (V c main_arg11) (funext fun a => Fin.ext ?_)
  match a with
  | ⟨0, _⟩ => show win3_2.index t (0 : Fin 1) * 128 + 1 * k.val = k.val; rw [e0]; omega

theorem readW2 (c : Dev nD) (t : Fin cfg3.N) (k : Fin 128) (q : Fin 1) :
    iblk3 V c 3 t (ix2 k q) = V c main_v68 (ix2 k q) := by
  obtain ⟨-, -, -, -, -, e0, e1, -⟩ := maps3 t
  show V c main_v68 (((cfg3.win 3).blk t).view.emb (ix2 k q)) = _
  refine congrArg (V c main_v68) (funext fun a => Fin.ext ?_)
  match a with
  | ⟨0, _⟩ => show win3_3.index t (0 : Fin 2) * 128 + 1 * k.val = k.val; rw [e0]; omega
  | ⟨1, _⟩ => show win3_3.index t (1 : Fin 2) * 1 + 1 * q.val = q.val; rw [e1]; omega

theorem readB2 (c : Dev nD) (t : Fin cfg3.N) (q : Fin 1) :
    iblk3 V c 4 t (ix1 q) = V c main_arg13 (ix1 q) := by
  obtain ⟨-, -, -, -, -, -, -, e0, -⟩ := maps3 t
  show V c main_arg13 (((cfg3.win 4).blk t).view.emb (ix1 q)) = _
  refine congrArg (V c main_arg13) (funext fun a => Fin.ext ?_)
  match a with
  | ⟨0, _⟩ => show win3_4.index t (0 : Fin 1) * 1 + 1 * q.val = q.val; rw [e0]; omega

/-- What the one point writes back is the head's whole-array function of the region's entry contents. -/
theorem flushed3 (c : Dev nD) (t : Fin cfg3.N) :
    (dat3 V c).flushed 5 t = ((cfg3.win 5).blk t).view.read (Elt Ideal)
      (headOf (V c main_v66) (V c main_v67) (V c main_arg11) (V c main_v68) (V c main_arg13)) := by
  show (cfg3.win 5).cut (grid3.coords t) ((dat3 V c).after 5 t) = _
  rw [after3_5]
  unfold out3_5
  rw [View.canon_unit_zero zeroOffsets2_head]
  simp only [View.ld_unit_zero (S := S512x128) zeroOffsets2_head, View.ld_unit_zero (S := S128x128) zeroOffsets2_head, View.ld_unit_zero (S := S128) zeroOffsets1_head,
    View.ld_unit_zero (S := S128x1) zeroOffsets2_head, View.ld_unit_zero (S := S1) zeroOffsets1_head]
  funext y
  obtain ⟨p, q, rfl⟩ : ∃ (p : Fin 512) (q : Fin 1), y = ix2 p q := ⟨y 0, y 1, eq_ix2 y⟩
  obtain ⟨-, -, -, -, -, -, -, -, e0, e1⟩ := maps3 t
  have hemb : ((cfg3.win 5).blk t).view.emb (ix2 p q) = ix2 p q := by
    funext a; apply Fin.ext
    match a with
    | ⟨0, _⟩ => show win3_5.index t (0 : Fin 2) * 512 + 1 * p.val = p.val; rw [e0]; omega
    | ⟨1, _⟩ => show win3_5.index t (1 : Fin 2) * 1 + 1 * q.val = q.val; rw [e1]; omega
  show k3_pay1 (F := Ideal) (iblk3 V c 0 t) (iblk3 V c 1 t) (iblk3 V c 2 t) (iblk3 V c 3 t) (iblk3 V c 4 t) (ix2 p q)
    = headOf (V c main_v66) (V c main_v67) (V c main_arg11) (V c main_v68) (V c main_arg13) (((cfg3.win 5).blk t).view.emb (ix2 p q))
  rw [hemb]
  refine (Bodies.head_block (iblk3 V c 0 t) (iblk3 V c 1 t) (iblk3 V c 2 t) (iblk3 V c 3 t) (iblk3 V c 4 t) p q).trans ?_
  simp only [readPooled, readW1, readB1, readW2, readB2]
  rfl

theorem mem_block3 (t : Fin cfg3.N) (i : S512x1.Idx) :
    i ∈ ((cfg3.win 5).blk t).view.set ↔ ∀ a : Fin 2, win3_5.index t a * S512x1.size a ≤ (i a).val ∧ (i a).val < win3_5.index t a * S512x1.size a + S512x1.size a := by
  show i ∈ ((View.whole main_v69).slice (win3_5.rect t)).set ↔ _
  rw [View.set_slice_whole, Rect.mem_set_unit]
  exact Iff.rfl

theorem covered3 (i : S512x1.Idx) : ∃ t : Fin cfg3.N, (cfg3.win 5).flush t = true ∧ i ∈ ((cfg3.win 5).blk t).view.set := by
  have hi0 : (i 0).val < 512 := (i 0).isLt
  have hi1 : (i 1).val < 1 := (i 1).isLt
  obtain ⟨-, -, -, -, -, -, -, -, e0, e1⟩ := maps3 t3_0
  refine ⟨t3_0, flush3_5 t3_0, ?_⟩
  rw [mem_block3]
  intro a
  match a with
  | ⟨0, _⟩ => show win3_5.index t3_0 (0 : Fin 2) * 512 ≤ (i 0).val ∧ (i 0).val < win3_5.index t3_0 (0 : Fin 2) * 512 + 512; rw [e0]; omega
  | ⟨1, _⟩ => show win3_5.index t3_0 (1 : Fin 2) * 1 ≤ (i 1).val ∧ (i 1).val < win3_5.index t3_0 (1 : Fin 2) * 1 + 1; rw [e1]; omega

/-- THE ARRAY the head leaves: the head's function of the arrays the region found. -/
theorem head_array (c : Dev nD) :
    (dat3 V c).arrAt 5 cfg3.N = headOf (V c main_v66) (V c main_v67) (V c main_arg11) (V c main_v68) (V c main_arg13) :=
  (dat3 V c).arrAt_eq_of_cover 5 _ (fun t _ => flushed3 V c t) (covered3)

end Cert.KernelIdeal.Layers

end
-- ==== Proof.RefLayers.lean ====
/-
  The reference's layer and head, each as ONE function of whole arrays, and the law that joins the two programs.
  The reference computes a layer as `max ((A·Wᵀ + b) + H·W'ᵀ, 0)`; the kernel adds the two products first and the
  bias last.  Addition of extended reals is commutative and associative, so the two orders give one value — no
  finiteness is needed.  The head is `max (P·W₁ᵀ + b₁, 0)·W₂ᵀ + b₂` in both programs.
-/
import proofs.«117946_j52020643889507_1_alg».proof.Proof.Gen.ReferenceIdeal.Read
import proofs.«117946_j52020643889507_1_alg».proof.Proof.LayerSpec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Layers

open Cert.ReferenceIdeal Cert.ReferenceIdeal.Gen Idealize.ShloMosaic Idealize.ShloMosaic.ValueIdx GraphConvSpec

/-- The host's product of 50000×128 rows with a 128×128 matrix at `(r, q)`: the sum over the contracted position. -/
theorem nodesProduct_lhs0 (i : S50000x128.Idx) (q : dot_S50000x128_S128x128_S50000x128_1_0_0_1_n_n.contr.Idx) : (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem nodesProduct_rhs1 (i : S50000x128.Idx) (q : dot_S50000x128_S128x128_S50000x128_1_0_0_1_n_n.contr.Idx) : (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl
theorem nodesProduct {φ₁ φ₂ : FTy} (x : FVec Ideal S50000x128 φ₁) (w : FVec Ideal S128x128 φ₂) (p : Fin 50000) (q : Fin 128) :
    Host.dotGeneral dot_S50000x128_S128x128_S50000x128_1_0_0_1_n_n none x w (ix2 p q) = ∑ k : Fin 128, x (ix2 p k) * w (ix2 k q) := by
  refine (Ideal.dotGeneral_apply dot_S50000x128_S128x128_S50000x128_1_0_0_1_n_n none .single x w (ix2 p q)).trans ?_
  rw [← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 p q) ((contrEquiv1 dot_S50000x128_S128x128_S50000x128_1_0_0_1_n_n 128 rfl rfl).symm k) = ix2 p k := funext fun a => Fin.ext (by
    match a with
    | ⟨0, _⟩ => exact nodesProduct_lhs0 _ _
    | ⟨1, _⟩ => exact (dot_S50000x128_S128x128_S50000x128_1_0_0_1_n_n.lhsIdx_val_of_single rfl _ _).trans hk)
  have er : dot_S50000x128_S128x128_S50000x128_1_0_0_1_n_n.rhsIdx (ix2 p q) ((contrEquiv1 dot_S50000x128_S128x128_S50000x128_1_0_0_1_n_n 128 rfl rfl).symm k) = ix2 k q := funext fun a => Fin.ext (by
    match a with
    | ⟨0, _⟩ => exact (dot_S50000x128_S128x128_S50000x128_1_0_0_1_n_n.rhsIdx_val_of_single rfl _ _).trans hk
    | ⟨1, _⟩ => exact nodesProduct_rhs1 _ _)
  rw [el, er]

/-- The host's product of the pooled 512×128 rows with a 128×128 matrix at `(p, q)`. -/
theorem pooledProduct_lhs0 (i : S512x128.Idx) (q : dot_S512x128_S128x128_S512x128_1_0_0_1_n_n.contr.Idx) : (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
theorem pooledProduct_rhs1 (i : S512x128.Idx) (q : dot_S512x128_S128x128_S512x128_1_0_0_1_n_n.contr.Idx) : (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl
theorem pooledProduct {φ₁ φ₂ : FTy} (x : FVec Ideal S512x128 φ₁) (w : FVec Ideal S128x128 φ₂) (p : Fin 512) (q : Fin 128) :
    Host.dotGeneral dot_S512x128_S128x128_S512x128_1_0_0_1_n_n none x w (ix2 p q) = ∑ k : Fin 128, x (ix2 p k) * w (ix2 k q) := by
  refine (Ideal.dotGeneral_apply dot_S512x128_S128x128_S512x128_1_0_0_1_n_n none .single x w (ix2 p q)).trans ?_
  rw [← Equiv.sum_comp (contrEquiv1 dot_S512x128_S128x128_S512x128_1_0_0_1_n_n 128 rfl rfl).symm]
  refine Finset.sum_congr rfl fun k _ => ?_
  have hk := contrEquiv1_symm_val dot_S512x128_S128x128_S512x128_1_0_0_1_n_n 128 rfl rfl k
  have el : dot_S512x128_S128x128_S512x128_1_0_0_1_n_n.lhsIdx (ix2 p q) ((contrEquiv1 dot_S512x128_S128x128_S512x128_1_0_0_1_n_n 128 rfl rfl).symm k) = ix2 p k := funext fun a => Fin.ext (by
    match a with
    | ⟨0, _⟩ => exact pooledProduct_lhs0 _ _
    | ⟨1, _⟩ => exact (dot_S512x128_S128x128_S512x128_1_0_0_1_n_n.lhsIdx_val_of_single rfl _ _).trans hk)
  have er : dot_S512x128_S128x128_S512x128_1_0_0_1_n_n.rhsIdx (ix2 p q) ((contrEquiv1 dot_S512x128_S128x128_S512x128_1_0_0_1_n_n 128 rfl rfl).symm k) = ix2 k q := funext fun a => Fin.ext (by
    match a with
    | ⟨0, _⟩ => exact (dot_S512x128_S128x128_S512x128_1_0_0_1_n_n.rhsIdx_val_of_single rfl _ _).trans hk
    | ⟨1, _⟩ => exact pooledProduct_rhs1 _ _)
  rw [el, er]

/-- The host's product of the hidden 512×128 rows with a 128×1 column at `(p, 0)`. -/
theorem columnProduct_lhs0 (i : S512x1.Idx) (q : dot_S512x128_S128x1_S512x1_1_0_0_1_n_n.contr.Idx) : (dot_S512x128_S128x1_S512x1_1_0_0_1_n_n.lhsIdx i q 0).val = (i 0).val := by
  unfold DotDims.lhsIdx
  rw [dif_neg (show ¬(0 : Fin S512x128.rank) ∈ dot_S512x128_S128x1_S512x1_1_0_0_1_n_n.lhsBatch by decide), dif_pos (show (0 : Fin S512x128.rank) ∈ dot_S512x128_S128x1_S512x1_1_0_0_1_n_n.lhsNonContracting by decide)]
  rfl
theorem columnProduct_rhs1 (i : S512x1.Idx) (q : dot_S512x128_S128x1_S512x1_1_0_0_1_n_n.contr.Idx) : (dot_S512x128_S128x1_S512x1_1_0_0_1_n_n.rhsIdx i q 1).val = (i 1).val := by
  unfold DotDims.rhsIdx
  rw [dif_neg (show ¬(1 : Fin S128x1.rank) ∈ dot_S512x128_S128x1_S512x1_1_0_0_1_n_n.rhsBatch by decide), dif_pos (show (1 : Fin S128x1.rank) ∈ dot_S512x128_S128x1_S512x1_1_0_0_1_n_n.rhsNonContracting by decide)]
  rfl
theorem columnProduct {φ₁ φ₂ : FTy} (x : FVec Ideal S512x128 φ₁) (w : FVec Ideal S128x1 φ₂) (p : Fin 512) (q : Fin 1) :
    Host.dotGeneral dot_S512x128_S128x1_S512x1_1_0_0_1_n_n none x w (ix2 p q) = ∑ k : Fin 128, x (ix2 p k) * w (ix2 k q) := by
  refine (Ideal.dotGeneral_apply dot_S512x128_S128x1_S512x1_1_0_0_1_n_n none .single x w (ix2 p q)).trans ?_
  rw [← Equiv.sum_comp (contrEquiv1 dot_S512x128_S128x1_S512x1_1_0_0_1_n_n 128 rfl rfl).symm]
  refine Finset.sum_congr rfl fun k _ => ?_
  have hk := contrEquiv1_symm_val dot_S512x128_S128x1_S512x1_1_0_0_1_n_n 128 rfl rfl k
  have el : dot_S512x128_S128x1_S512x1_1_0_0_1_n_n.lhsIdx (ix2 p q) ((contrEquiv1 dot_S512x128_S128x1_S512x1_1_0_0_1_n_n 128 rfl rfl).symm k) = ix2 p k := funext fun a => Fin.ext (by
    match a with
    | ⟨0, _⟩ => exact columnProduct_lhs0 _ _
    | ⟨1, _⟩ => exact (dot_S512x128_S128x1_S512x1_1_0_0_1_n_n.lhsIdx_val_of_single rfl _ _).trans hk)
  have er : dot_S512x128_S128x1_S512x1_1_0_0_1_n_n.rhsIdx (ix2 p q) ((contrEquiv1 dot_S512x128_S128x1_S512x1_1_0_0_1_n_n 128 rfl rfl).symm k) = ix2 k q := funext fun a => Fin.ext (by
    match a with
    | ⟨0, _⟩ => exact (dot_S512x128_S128x1_S512x1_1_0_0_1_n_n.rhsIdx_val_of_single rfl _ _).trans hk
    | ⟨1, _⟩ => exact columnProduct_rhs1 _ _)
  rw [el, er]

/-- The reference's layer: the aggregated messages `A` through `Wᵀ` plus the bias, plus the node features `H`
    through `W'ᵀ`, clamped below at zero. -/
def refLayer (A H : FVec Ideal S50000x128 .f32) (W : FVec Ideal S128x128 .f32) (b : FVec Ideal S128 .f32) (W' : FVec Ideal S128x128 .f32) :
    FVec Ideal S50000x128 .f32 :=
  maximumf (addf (addf (Host.dotGeneral dot_S50000x128_S128x128_S50000x128_1_0_0_1_n_n none A (transpose S128x128 [1, 0] W transposes_S128x128_S128x128_1_0))
        (broadcastInDim S50000x128 ![0, 1] bcast_S1x128_S50000x128_0_1 (broadcastInDim S1x128 ![1] bcast_S128_S1x128_1 b)))
      (Host.dotGeneral dot_S50000x128_S128x128_S50000x128_1_0_0_1_n_n none H (transpose S128x128 [1, 0] W' transposes_S128x128_S128x128_1_0)))
    (broadcastInDim S50000x128 ![] bcast_S_S50000x128 (constant (F := Ideal) S_ .f32 0x00000000#32))

/-- A bias row spread over the 50000 rows reads, at `(r, q)`, the row's entry `q`. -/
theorem biasRows_apply (b : FVec Ideal S128 .f32) (r : Fin 50000) (q : Fin 128) :
    broadcastInDim S50000x128 ![0, 1] bcast_S1x128_S50000x128_0_1 (broadcastInDim S1x128 ![1] bcast_S128_S1x128_1 b) (ix2 r q) = b (ix1 q) := by
  refine (broadcastInDim_apply _ bcast_S1x128_S50000x128_0_1 _ (ix2 r q) (ix2 (0 : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)])).trans ?_
  exact broadcastInDim_apply _ bcast_S128_S1x128_1 b (ix2 (0 : Fin 1) q) (ix1 q) (fun a => match a with
    | ⟨0, _⟩ => by show q.val = if (128 : Nat) = 1 then 0 else q.val; rw [if_neg (by decide)])

/-- THE LAW: the reference's layer is the kernel's layer function of the same arrays (the weights transposed as
    arrays): `(x + b) + y = (x + y) + b` on the extended reals. -/
theorem refLayer_eq (A H : FVec Ideal S50000x128 .f32) (W : FVec Ideal S128x128 .f32) (b : FVec Ideal S128 .f32) (W' : FVec Ideal S128x128 .f32) :
    refLayer A H W b W' = layerOf A H (transpose S128x128 [1, 0] W transposes_S128x128_S128x128_1_0) b
      (transpose S128x128 [1, 0] W' transposes_S128x128_S128x128_1_0) := by
  funext i
  obtain ⟨r, q, rfl⟩ : ∃ (r : Fin 50000) (q : Fin 128), i = ix2 r q := ⟨i 0, i 1, eq_ix2 i⟩
  rw [layerOf_ix2]
  unfold refLayer layerAt
  show max ((Host.dotGeneral dot_S50000x128_S128x128_S50000x128_1_0_0_1_n_n none A _ (ix2 r q)
        + broadcastInDim S50000x128 ![0, 1] bcast_S1x128_S50000x128_0_1 (broadcastInDim S1x128 ![1] bcast_S128_S1x128_1 b) (ix2 r q))
      + Host.dotGeneral dot_S50000x128_S128x128_S50000x128_1_0_0_1_n_n none H _ (ix2 r q))
    (Ideal.ofBits .f32 0x00000000#32) = _
  rw [nodesProduct, nodesProduct, biasRows_apply, add_right_comm]

/-! ## The head -/

/-- The reference's head: `max (P·W₁ᵀ + b₁, 0)·W₂ᵀ + b₂` of the pooled rows `P`. -/
def refHead (P : FVec Ideal S512x128 .f32) (W₁ : FVec Ideal S128x128 .f32) (b₁ : FVec Ideal S128 .f32)
    (W₂ : FVec Ideal S1x128 .f32) (b₂ : FVec Ideal S1 .f32) : FVec Ideal S512x1 .f32 :=
  addf (Host.dotGeneral dot_S512x128_S128x1_S512x1_1_0_0_1_n_n none
      (maximumf (addf (Host.dotGeneral dot_S512x128_S128x128_S512x128_1_0_0_1_n_n none P (transpose S128x128 [1, 0] W₁ transposes_S128x128_S128x128_1_0))
          (broadcastInDim S512x128 ![0, 1] bcast_S1x128_S512x128_0_1 (broadcastInDim S1x128 ![1] bcast_S128_S1x128_1 b₁)))
        (broadcastInDim S512x128 ![] bcast_S_S512x128 (constant (F := Ideal) S_ .f32 0x00000000#32)))
      (transpose S128x1 [1, 0] W₂ transposes_S1x128_S128x1_1_0))
    (broadcastInDim S512x1 ![0, 1] bcast_S1x1_S512x1_0_1 (broadcastInDim S1x1 ![1] bcast_S1_S1x1_1 b₂))

theorem hiddenBias_apply (b : FVec Ideal S128 .f32) (p : Fin 512) (k : Fin 128) :
    broadcastInDim S512x128 ![0, 1] bcast_S1x128_S512x128_0_1 (broadcastInDim S1x128 ![1] bcast_S128_S1x128_1 b) (ix2 p k) = b (ix1 k) := by
  refine (broadcastInDim_apply _ bcast_S1x128_S512x128_0_1 _ (ix2 p k) (ix2 (0 : Fin 1) k) (fun a => match a with
    | ⟨0, _⟩ => by show 0 = if (1 : Nat) = 1 then 0 else p.val; rw [if_pos rfl]
    | ⟨1, _⟩ => by show k.val = if (128 : Nat) = 1 then 0 else k.val; rw [if_neg (by decide)])).trans ?_
  exact broadcastInDim_apply _ bcast_S128_S1x128_1 b (ix2 (0 : Fin 1) k) (ix1 k) (fun a => match a with
    | ⟨0, _⟩ => by show k.val = if (128 : Nat) = 1 then 0 else k.val; rw [if_neg (by decide)])

theorem outBias_apply (b : FVec Ideal S1 .f32) (p : Fin 512) (q : Fin 1) :
    broadcastInDim S512x1 ![0, 1] bcast_S1x1_S512x1_0_1 (broadcastInDim S1x1 ![1] bcast_S1_S1x1_1 b) (ix2 p q) = b (ix1 q) := by
  have hq : q = 0 := Fin.ext (by omega)
  subst hq
  refine (broadcastInDim_apply _ bcast_S1x1_S512x1_0_1 _ (ix2 p (0 : Fin 1)) (ix2 (0 : Fin 1) (0 : Fin 1)) (fun a => match a with
    | ⟨0, _⟩ => by show 0 = if (1 : Nat) = 1 then 0 else p.val; rw [if_pos rfl]
    | ⟨1, _⟩ => by show 0 = if (1 : Nat) = 1 then 0 else 0; rw [if_pos rfl])).trans ?_
  exact broadcastInDim_apply _ bcast_S1_S1x1_1 b (ix2 (0 : Fin 1) (0 : Fin 1)) (ix1 (0 : Fin 1)) (fun a => match a with
    | ⟨0, _⟩ => by show 0 = if (1 : Nat) = 1 then 0 else 0; rw [if_pos rfl])

/-- The reference's head is the head function of the same arrays (the weights transposed as arrays): the two
    programs spell one expression. -/
theorem refHead_eq (P : FVec Ideal S512x128 .f32) (W₁ : FVec Ideal S128x128 .f32) (b₁ : FVec Ideal S128 .f32)
    (W₂ : FVec Ideal S1x128 .f32) (b₂ : FVec Ideal S1 .f32) :
    refHead P W₁ b₁ W₂ b₂ = headOf P (transpose S128x128 [1, 0] W₁ transposes_S128x128_S128x128_1_0) b₁
      (transpose S128x1 [1, 0] W₂ transposes_S1x128_S128x1_1_0) b₂ := by
  funext i
  obtain ⟨p, q, rfl⟩ : ∃ (p : Fin 512) (q : Fin 1), i = ix2 p q := ⟨i 0, i 1, eq_ix2 i⟩
  rw [headOf_ix2]
  unfold refHead headAt
  show Host.dotGeneral dot_S512x128_S128x1_S512x1_1_0_0_1_n_n none _ _ (ix2 p q)
      + broadcastInDim S512x1 ![0, 1] bcast_S1x1_S512x1_0_1 (broadcastInDim S1x1 ![1] bcast_S1_S1x1_1 b₂) (ix2 p q) = _
  rw [columnProduct, outBias_apply]
  refine congrArg (· + b₂ (ix1 q)) (Finset.sum_congr rfl fun k _ => ?_)
  refine congrArg (· * _) ?_
  show max (Host.dotGeneral dot_S512x128_S128x128_S512x128_1_0_0_1_n_n none P _ (ix2 p k)
      + broadcastInDim S512x128 ![0, 1] bcast_S1x128_S512x128_0_1 (broadcastInDim S1x128 ![1] bcast_S128_S1x128_1 b₁) (ix2 p k))
    (Ideal.ofBits .f32 0x00000000#32) = _
  rw [pooledProduct, hiddenBias_apply]

/-! ## The shared host chains, each carried as one function and never opened -/

/-- The aggregation of a layer: gather the source rows of `H`, scale each by its edge weight, add into the
    destination rows. -/
def refAgg (H : (⟨S50000x128, .f32⟩ : BufTy).Contents (Elt Ideal)) (E : (⟨S2x800000, .i32⟩ : BufTy).Contents (Elt Ideal)) (w : (⟨S800000, .f32⟩ : BufTy).Contents (Elt Ideal)) : (⟨S50000x128, .f32⟩ : BufTy).Contents (Elt Ideal) :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 (Read.val_main_v3 (F := Ideal) E))
    (mulf (F := Ideal) (Host.gather gather_S50000x128_S800000x1_S800000x128_1_0_n_n_0_1_1128 H
        (broadcastInDim S800000x1 ![0] bcast_S800000_S800000x1_0 (Read.val_main_v8 (F := Ideal) E)))
      (broadcastInDim S800000x128 ![0, 1] bcast_S800000x1_S800000x128_0_1 (broadcastInDim S800000x1 ![0] bcast_S800000_S800000x1_0 w)))

/-- The pooling: add every node's row into its graph's row. -/
def refPool (H : (⟨S50000x128, .f32⟩ : BufTy).Contents (Elt Ideal)) (B : (⟨S50000, .i32⟩ : BufTy).Contents (Elt Ideal)) : (⟨S512x128, .f32⟩ : BufTy).Contents (Elt Ideal) :=
  Host.scatterAdd (F := Ideal) scatter_S512x128_S50000x1_S50000x128_1_0_0_1
    (broadcastInDim S512x128 ![] bcast_S_S512x128 (constant (F := Ideal) S_ .f32 0x00000000#32))
    (broadcastInDim S50000x1 ![0] bcast_S50000_S50000x1_0 B) H

set_option maxRecDepth 16384 in
open Cert.ReferenceIdeal.Read in
/-- The reference's result as the composition: three layers, each fed by the aggregation of the one before, the
    pooling, the head. -/
theorem result_comp (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S800000, .f32⟩ : BufTy).Contents (Elt Ideal))
    (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S2x128x128, .f32⟩ : BufTy).Contents (Elt Ideal)) (x8 : (⟨S2x128, .f32⟩ : BufTy).Contents (Elt Ideal))
    (x9 : (⟨S2x128x128, .f32⟩ : BufTy).Contents (Elt Ideal)) (x10 : (⟨S128x128, .f32⟩ : BufTy).Contents (Elt Ideal)) (x11 : (⟨S128, .f32⟩ : BufTy).Contents (Elt Ideal)) (x12 : (⟨S1x128, .f32⟩ : BufTy).Contents (Elt Ideal)) (x13 : (⟨S1, .f32⟩ : BufTy).Contents (Elt Ideal)) :
    val_main_v95 (F := Ideal) x0 x1 x2 x3 x4 x5 x6 x7 x8 x9 x10 x11 x12 x13
      = refHead (refPool (refLayer (refAgg (refLayer (refAgg (refLayer (refAgg x0 x1 x3) x0 x4 x5 x6) x1 x3) (refLayer (refAgg x0 x1 x3) x0 x4 x5 x6)
              (val_main_v27 x7) (val_main_v29 x8) (val_main_v31 x9)) x1 x3)
            (refLayer (refAgg (refLayer (refAgg x0 x1 x3) x0 x4 x5 x6) x1 x3) (refLayer (refAgg x0 x1 x3) x0 x4 x5 x6)
              (val_main_v27 x7) (val_main_v29 x8) (val_main_v31 x9))
            (val_main_v55 x7) (val_main_v57 x8) (val_main_v59 x9)) x2) x10 x11 x12 x13 := rfl

end Cert.ReferenceIdeal.Layers

end
-- ==== Proof.Agg1.lean ====
/-
  The aggregation feeding layer 1: whatever the segment boundary holds, the stretch of host operations before
  the region leaves in the region's first operand the edge-weighted sum, over the edges into each node, of the rows the
  boundary holds for the node features — the same gather, product and scatter-add the reference applies, carried as one
  function (`refAgg`) and never opened.
-/
import proofs.«117946_j52020643889507_1_alg».proof.Proof.Gen.KernelIdeal.Launch
import proofs.«117946_j52020643889507_1_alg».proof.Proof.RefLayers

set_option maxRecDepth 16384

noncomputable section

namespace Cert.KernelIdeal.Aggregation

open Cert.KernelIdeal Cert.KernelIdeal.Gen Idealize.ShloMosaic Idealize.ShloMosaic.TcCoe Idealize.SL.Sem Idealize.ShloMosaic.StableHlo
open Cert.ReferenceIdeal.Layers (refAgg)

set_option maxHeartbeats 4000000 in
theorem agg1 (W : Valuation τ sig (Elt Ideal)) (X : (⟨Cert.ReferenceIdeal.S50000x128, .f32⟩ : BufTy).Contents (Elt Ideal)) (E : (⟨Cert.ReferenceIdeal.S2x800000, .i32⟩ : BufTy).Contents (Elt Ideal))
    (w : (⟨Cert.ReferenceIdeal.S800000, .f32⟩ : BufTy).Contents (Elt Ideal))
    (hX : W (Proc.devRef .tc main_arg0) = X)
    (hE : W (Proc.devRef .tc main_arg1) = E)
    (hw : W (Proc.devRef .tc main_arg3) = w) :
    StableHlo.after hostOps0 W (Proc.devRef .tc main_v18) = refAgg X E w := by
  after_results
  rw [hX, hE, hw]
  rfl

end Cert.KernelIdeal.Aggregation

end
-- ==== Proof.Agg2.lean ====
/-
  The aggregation feeding layer 2: whatever the segment boundary holds, the stretch of host operations before
  the region leaves in the region's first operand the edge-weighted sum, over the edges into each node, of the rows the
  boundary holds for the node features — the same gather, product and scatter-add the reference applies, carried as one
  function (`refAgg`) and never opened.
-/
import proofs.«117946_j52020643889507_1_alg».proof.Proof.Gen.KernelIdeal.Launch
import proofs.«117946_j52020643889507_1_alg».proof.Proof.RefLayers

set_option maxRecDepth 16384

noncomputable section

namespace Cert.KernelIdeal.Aggregation

open Cert.KernelIdeal Cert.KernelIdeal.Gen Idealize.ShloMosaic Idealize.ShloMosaic.TcCoe Idealize.SL.Sem Idealize.ShloMosaic.StableHlo
open Cert.ReferenceIdeal.Layers (refAgg)

set_option maxHeartbeats 4000000 in
theorem agg2 (W : Valuation τ sig (Elt Ideal)) (X : (⟨Cert.ReferenceIdeal.S50000x128, .f32⟩ : BufTy).Contents (Elt Ideal)) (E : (⟨Cert.ReferenceIdeal.S2x800000, .i32⟩ : BufTy).Contents (Elt Ideal))
    (w : (⟨Cert.ReferenceIdeal.S800000, .f32⟩ : BufTy).Contents (Elt Ideal))
    (hX : W (Proc.devRef .tc main_v19) = X)
    (h1 : W (Proc.devRef .tc main_v1) = Cert.ReferenceIdeal.Read.val_main_v1 (F := Ideal) E)
    (h3 : W (Proc.devRef .tc main_v3) = Cert.ReferenceIdeal.Read.val_main_v3 (F := Ideal) E)
    (hw : W (Proc.devRef .tc main_arg3) = w) :
    StableHlo.after hostOps1 W (Proc.devRef .tc main_v40) = refAgg X E w := by
  after_results
  rw [hX, h1, h3, hw]
  rfl

end Cert.KernelIdeal.Aggregation

end
-- ==== Proof.Agg3.lean ====
/-
  The aggregation feeding layer 3: whatever the segment boundary holds, the stretch of host operations before
  the region leaves in the region's first operand the edge-weighted sum, over the edges into each node, of the rows the
  boundary holds for the node features — the same gather, product and scatter-add the reference applies, carried as one
  function (`refAgg`) and never opened.
-/
import proofs.«117946_j52020643889507_1_alg».proof.Proof.Gen.KernelIdeal.Launch
import proofs.«117946_j52020643889507_1_alg».proof.Proof.RefLayers

set_option maxRecDepth 16384

noncomputable section

namespace Cert.KernelIdeal.Aggregation

open Cert.KernelIdeal Cert.KernelIdeal.Gen Idealize.ShloMosaic Idealize.ShloMosaic.TcCoe Idealize.SL.Sem Idealize.ShloMosaic.StableHlo
open Cert.ReferenceIdeal.Layers (refAgg)

set_option maxHeartbeats 4000000 in
theorem agg3 (W : Valuation τ sig (Elt Ideal)) (X : (⟨Cert.ReferenceIdeal.S50000x128, .f32⟩ : BufTy).Contents (Elt Ideal)) (E : (⟨Cert.ReferenceIdeal.S2x800000, .i32⟩ : BufTy).Contents (Elt Ideal))
    (w : (⟨Cert.ReferenceIdeal.S800000, .f32⟩ : BufTy).Contents (Elt Ideal))
    (hX : W (Proc.devRef .tc main_v41) = X)
    (h1 : W (Proc.devRef .tc main_v1) = Cert.ReferenceIdeal.Read.val_main_v1 (F := Ideal) E)
    (h3 : W (Proc.devRef .tc main_v3) = Cert.ReferenceIdeal.Read.val_main_v3 (F := Ideal) E)
    (hw : W (Proc.devRef .tc main_arg3) = w) :
    StableHlo.after hostOps2 W (Proc.devRef .tc main_v62) = refAgg X E w := by
  after_results
  rw [hX, h1, h3, hw]
  rfl

end Cert.KernelIdeal.Aggregation

end
-- ==== Proof.Boundaries.lean ====
/-
  The kernel program read back from its last segment boundary to its arguments.
  Between the regions the host gathers each edge's source row, scales it by the edge weight and adds it into the
  destination row (the aggregation), slices and transposes the weights, and at the end adds every node's row into its
  graph's row (the pooling).  These are the SAME host operations the reference applies, so each chain is carried as one
  function and never opened.  Layer by layer the array a region leaves is the reference's layer of the same arrays
  (`refLayer_eq`: one commuted sum), and the result is the reference's head of the pooled third layer.
-/
import proofs.«117946_j52020643889507_1_alg».proof.Proof.Gen.KernelIdeal.Frame
import proofs.«117946_j52020643889507_1_alg».proof.Proof.Layer1
import proofs.«117946_j52020643889507_1_alg».proof.Proof.Layer2
import proofs.«117946_j52020643889507_1_alg».proof.Proof.Layer3
import proofs.«117946_j52020643889507_1_alg».proof.Proof.HeadRegion
import proofs.«117946_j52020643889507_1_alg».proof.Proof.RefLayers
import proofs.«117946_j52020643889507_1_alg».proof.Proof.Agg1
import proofs.«117946_j52020643889507_1_alg».proof.Proof.Agg2
import proofs.«117946_j52020643889507_1_alg».proof.Proof.Agg3

set_option maxRecDepth 16384

noncomputable section

namespace Cert.KernelIdeal.Boundaries

open Cert.KernelIdeal Cert.KernelIdeal.Gen Idealize.ShloMosaic Idealize.ShloMosaic.TcCoe Idealize.SL.Sem Idealize.ShloMosaic.StableHlo
open Cert.ReferenceIdeal.Layers (refAgg refPool refLayer refHead refLayer_eq refHead_eq)

variable (m : (ℓ : Loc nD τ sig) → Buf (Elt Ideal) ℓ) (ρ : Dev nD → PrngReg) (c : Dev nD)

/-! ## What no region and no later host operation overwrites

The two index columns cut out of the edge list before the first region, and the arguments the later stretches read,
hold their first contents at every boundary up to the last region's entry. -/

theorem w1_v1 : W1 m ρ c (Proc.devRef .tc main_v1) = (Cert.ReferenceIdeal.Read.val_main_v1 (F := Ideal) (m ((c : Thread nD τ).loc main_arg1))) := by
  show StableHlo.after hostOps0 (W0 m ρ c) (Proc.devRef .tc main_v1) = _
  after_results <;> rfl
theorem w2_v1 : W2 m ρ c (Proc.devRef .tc main_v1) = (Cert.ReferenceIdeal.Read.val_main_v1 (F := Ideal) (m ((c : Thread nD τ).loc main_arg1))) := (W2_of_ne m ρ c main_v1 (by decide)).trans (w1_v1 m ρ c)
theorem w3_v1 : W3 m ρ c (Proc.devRef .tc main_v1) = (Cert.ReferenceIdeal.Read.val_main_v1 (F := Ideal) (m ((c : Thread nD τ).loc main_arg1))) :=
  (show StableHlo.after hostOps1 (W2 m ρ c) (Proc.devRef .tc main_v1) = W2 m ρ c (Proc.devRef .tc main_v1) by after_results).trans (w2_v1 m ρ c)
theorem w4_v1 : W4 m ρ c (Proc.devRef .tc main_v1) = (Cert.ReferenceIdeal.Read.val_main_v1 (F := Ideal) (m ((c : Thread nD τ).loc main_arg1))) := (W4_of_ne m ρ c main_v1 (by decide)).trans (w3_v1 m ρ c)
theorem w5_v1 : W5 m ρ c (Proc.devRef .tc main_v1) = (Cert.ReferenceIdeal.Read.val_main_v1 (F := Ideal) (m ((c : Thread nD τ).loc main_arg1))) :=
  (show StableHlo.after hostOps2 (W4 m ρ c) (Proc.devRef .tc main_v1) = W4 m ρ c (Proc.devRef .tc main_v1) by after_results).trans (w4_v1 m ρ c)
theorem w6_v1 : W6 m ρ c (Proc.devRef .tc main_v1) = (Cert.ReferenceIdeal.Read.val_main_v1 (F := Ideal) (m ((c : Thread nD τ).loc main_arg1))) := (W6_of_ne m ρ c main_v1 (by decide)).trans (w5_v1 m ρ c)

theorem w1_v3 : W1 m ρ c (Proc.devRef .tc main_v3) = (Cert.ReferenceIdeal.Read.val_main_v3 (F := Ideal) (m ((c : Thread nD τ).loc main_arg1))) := by
  show StableHlo.after hostOps0 (W0 m ρ c) (Proc.devRef .tc main_v3) = _
  after_results <;> rfl
theorem w2_v3 : W2 m ρ c (Proc.devRef .tc main_v3) = (Cert.ReferenceIdeal.Read.val_main_v3 (F := Ideal) (m ((c : Thread nD τ).loc main_arg1))) := (W2_of_ne m ρ c main_v3 (by decide)).trans (w1_v3 m ρ c)
theorem w3_v3 : W3 m ρ c (Proc.devRef .tc main_v3) = (Cert.ReferenceIdeal.Read.val_main_v3 (F := Ideal) (m ((c : Thread nD τ).loc main_arg1))) :=
  (show StableHlo.after hostOps1 (W2 m ρ c) (Proc.devRef .tc main_v3) = W2 m ρ c (Proc.devRef .tc main_v3) by after_results).trans (w2_v3 m ρ c)
theorem w4_v3 : W4 m ρ c (Proc.devRef .tc main_v3) = (Cert.ReferenceIdeal.Read.val_main_v3 (F := Ideal) (m ((c : Thread nD τ).loc main_arg1))) := (W4_of_ne m ρ c main_v3 (by decide)).trans (w3_v3 m ρ c)
theorem w5_v3 : W5 m ρ c (Proc.devRef .tc main_v3) = (Cert.ReferenceIdeal.Read.val_main_v3 (F := Ideal) (m ((c : Thread nD τ).loc main_arg1))) :=
  (show StableHlo.after hostOps2 (W4 m ρ c) (Proc.devRef .tc main_v3) = W4 m ρ c (Proc.devRef .tc main_v3) by after_results).trans (w4_v3 m ρ c)
theorem w6_v3 : W6 m ρ c (Proc.devRef .tc main_v3) = (Cert.ReferenceIdeal.Read.val_main_v3 (F := Ideal) (m ((c : Thread nD τ).loc main_arg1))) := (W6_of_ne m ρ c main_v3 (by decide)).trans (w5_v3 m ρ c)

theorem w1_a2 : W1 m ρ c (Proc.devRef .tc main_arg2) = (m ((c : Thread nD τ).loc main_arg2)) := by
  show StableHlo.after hostOps0 (W0 m ρ c) (Proc.devRef .tc main_arg2) = _
  after_results <;> rfl
theorem w2_a2 : W2 m ρ c (Proc.devRef .tc main_arg2) = (m ((c : Thread nD τ).loc main_arg2)) := (W2_of_ne m ρ c main_arg2 (by decide)).trans (w1_a2 m ρ c)
theorem w3_a2 : W3 m ρ c (Proc.devRef .tc main_arg2) = (m ((c : Thread nD τ).loc main_arg2)) :=
  (show StableHlo.after hostOps1 (W2 m ρ c) (Proc.devRef .tc main_arg2) = W2 m ρ c (Proc.devRef .tc main_arg2) by after_results).trans (w2_a2 m ρ c)
theorem w4_a2 : W4 m ρ c (Proc.devRef .tc main_arg2) = (m ((c : Thread nD τ).loc main_arg2)) := (W4_of_ne m ρ c main_arg2 (by decide)).trans (w3_a2 m ρ c)
theorem w5_a2 : W5 m ρ c (Proc.devRef .tc main_arg2) = (m ((c : Thread nD τ).loc main_arg2)) :=
  (show StableHlo.after hostOps2 (W4 m ρ c) (Proc.devRef .tc main_arg2) = W4 m ρ c (Proc.devRef .tc main_arg2) by after_results).trans (w4_a2 m ρ c)
theorem w6_a2 : W6 m ρ c (Proc.devRef .tc main_arg2) = (m ((c : Thread nD τ).loc main_arg2)) := (W6_of_ne m ρ c main_arg2 (by decide)).trans (w5_a2 m ρ c)

theorem w1_a3 : W1 m ρ c (Proc.devRef .tc main_arg3) = (m ((c : Thread nD τ).loc main_arg3)) := by
  show StableHlo.after hostOps0 (W0 m ρ c) (Proc.devRef .tc main_arg3) = _
  after_results <;> rfl
theorem w2_a3 : W2 m ρ c (Proc.devRef .tc main_arg3) = (m ((c : Thread nD τ).loc main_arg3)) := (W2_of_ne m ρ c main_arg3 (by decide)).trans (w1_a3 m ρ c)
theorem w3_a3 : W3 m ρ c (Proc.devRef .tc main_arg3) = (m ((c : Thread nD τ).loc main_arg3)) :=
  (show StableHlo.after hostOps1 (W2 m ρ c) (Proc.devRef .tc main_arg3) = W2 m ρ c (Proc.devRef .tc main_arg3) by after_results).trans (w2_a3 m ρ c)
theorem w4_a3 : W4 m ρ c (Proc.devRef .tc main_arg3) = (m ((c : Thread nD τ).loc main_arg3)) := (W4_of_ne m ρ c main_arg3 (by decide)).trans (w3_a3 m ρ c)
theorem w5_a3 : W5 m ρ c (Proc.devRef .tc main_arg3) = (m ((c : Thread nD τ).loc main_arg3)) :=
  (show StableHlo.after hostOps2 (W4 m ρ c) (Proc.devRef .tc main_arg3) = W4 m ρ c (Proc.devRef .tc main_arg3) by after_results).trans (w4_a3 m ρ c)
theorem w6_a3 : W6 m ρ c (Proc.devRef .tc main_arg3) = (m ((c : Thread nD τ).loc main_arg3)) := (W6_of_ne m ρ c main_arg3 (by decide)).trans (w5_a3 m ρ c)

theorem w1_a7 : W1 m ρ c (Proc.devRef .tc main_arg7) = (m ((c : Thread nD τ).loc main_arg7)) := by
  show StableHlo.after hostOps0 (W0 m ρ c) (Proc.devRef .tc main_arg7) = _
  after_results <;> rfl
theorem w2_a7 : W2 m ρ c (Proc.devRef .tc main_arg7) = (m ((c : Thread nD τ).loc main_arg7)) := (W2_of_ne m ρ c main_arg7 (by decide)).trans (w1_a7 m ρ c)
theorem w3_a7 : W3 m ρ c (Proc.devRef .tc main_arg7) = (m ((c : Thread nD τ).loc main_arg7)) :=
  (show StableHlo.after hostOps1 (W2 m ρ c) (Proc.devRef .tc main_arg7) = W2 m ρ c (Proc.devRef .tc main_arg7) by after_results).trans (w2_a7 m ρ c)
theorem w4_a7 : W4 m ρ c (Proc.devRef .tc main_arg7) = (m ((c : Thread nD τ).loc main_arg7)) := (W4_of_ne m ρ c main_arg7 (by decide)).trans (w3_a7 m ρ c)
theorem w5_a7 : W5 m ρ c (Proc.devRef .tc main_arg7) = (m ((c : Thread nD τ).loc main_arg7)) :=
  (show StableHlo.after hostOps2 (W4 m ρ c) (Proc.devRef .tc main_arg7) = W4 m ρ c (Proc.devRef .tc main_arg7) by after_results).trans (w4_a7 m ρ c)
theorem w6_a7 : W6 m ρ c (Proc.devRef .tc main_arg7) = (m ((c : Thread nD τ).loc main_arg7)) := (W6_of_ne m ρ c main_arg7 (by decide)).trans (w5_a7 m ρ c)

theorem w1_a8 : W1 m ρ c (Proc.devRef .tc main_arg8) = (m ((c : Thread nD τ).loc main_arg8)) := by
  show StableHlo.after hostOps0 (W0 m ρ c) (Proc.devRef .tc main_arg8) = _
  after_results <;> rfl
theorem w2_a8 : W2 m ρ c (Proc.devRef .tc main_arg8) = (m ((c : Thread nD τ).loc main_arg8)) := (W2_of_ne m ρ c main_arg8 (by decide)).trans (w1_a8 m ρ c)
theorem w3_a8 : W3 m ρ c (Proc.devRef .tc main_arg8) = (m ((c : Thread nD τ).loc main_arg8)) :=
  (show StableHlo.after hostOps1 (W2 m ρ c) (Proc.devRef .tc main_arg8) = W2 m ρ c (Proc.devRef .tc main_arg8) by after_results).trans (w2_a8 m ρ c)
theorem w4_a8 : W4 m ρ c (Proc.devRef .tc main_arg8) = (m ((c : Thread nD τ).loc main_arg8)) := (W4_of_ne m ρ c main_arg8 (by decide)).trans (w3_a8 m ρ c)
theorem w5_a8 : W5 m ρ c (Proc.devRef .tc main_arg8) = (m ((c : Thread nD τ).loc main_arg8)) :=
  (show StableHlo.after hostOps2 (W4 m ρ c) (Proc.devRef .tc main_arg8) = W4 m ρ c (Proc.devRef .tc main_arg8) by after_results).trans (w4_a8 m ρ c)
theorem w6_a8 : W6 m ρ c (Proc.devRef .tc main_arg8) = (m ((c : Thread nD τ).loc main_arg8)) := (W6_of_ne m ρ c main_arg8 (by decide)).trans (w5_a8 m ρ c)

theorem w1_a9 : W1 m ρ c (Proc.devRef .tc main_arg9) = (m ((c : Thread nD τ).loc main_arg9)) := by
  show StableHlo.after hostOps0 (W0 m ρ c) (Proc.devRef .tc main_arg9) = _
  after_results <;> rfl
theorem w2_a9 : W2 m ρ c (Proc.devRef .tc main_arg9) = (m ((c : Thread nD τ).loc main_arg9)) := (W2_of_ne m ρ c main_arg9 (by decide)).trans (w1_a9 m ρ c)
theorem w3_a9 : W3 m ρ c (Proc.devRef .tc main_arg9) = (m ((c : Thread nD τ).loc main_arg9)) :=
  (show StableHlo.after hostOps1 (W2 m ρ c) (Proc.devRef .tc main_arg9) = W2 m ρ c (Proc.devRef .tc main_arg9) by after_results).trans (w2_a9 m ρ c)
theorem w4_a9 : W4 m ρ c (Proc.devRef .tc main_arg9) = (m ((c : Thread nD τ).loc main_arg9)) := (W4_of_ne m ρ c main_arg9 (by decide)).trans (w3_a9 m ρ c)
theorem w5_a9 : W5 m ρ c (Proc.devRef .tc main_arg9) = (m ((c : Thread nD τ).loc main_arg9)) :=
  (show StableHlo.after hostOps2 (W4 m ρ c) (Proc.devRef .tc main_arg9) = W4 m ρ c (Proc.devRef .tc main_arg9) by after_results).trans (w4_a9 m ρ c)
theorem w6_a9 : W6 m ρ c (Proc.devRef .tc main_arg9) = (m ((c : Thread nD τ).loc main_arg9)) := (W6_of_ne m ρ c main_arg9 (by decide)).trans (w5_a9 m ρ c)

theorem w1_a10 : W1 m ρ c (Proc.devRef .tc main_arg10) = (m ((c : Thread nD τ).loc main_arg10)) := by
  show StableHlo.after hostOps0 (W0 m ρ c) (Proc.devRef .tc main_arg10) = _
  after_results <;> rfl
theorem w2_a10 : W2 m ρ c (Proc.devRef .tc main_arg10) = (m ((c : Thread nD τ).loc main_arg10)) := (W2_of_ne m ρ c main_arg10 (by decide)).trans (w1_a10 m ρ c)
theorem w3_a10 : W3 m ρ c (Proc.devRef .tc main_arg10) = (m ((c : Thread nD τ).loc main_arg10)) :=
  (show StableHlo.after hostOps1 (W2 m ρ c) (Proc.devRef .tc main_arg10) = W2 m ρ c (Proc.devRef .tc main_arg10) by after_results).trans (w2_a10 m ρ c)
theorem w4_a10 : W4 m ρ c (Proc.devRef .tc main_arg10) = (m ((c : Thread nD τ).loc main_arg10)) := (W4_of_ne m ρ c main_arg10 (by decide)).trans (w3_a10 m ρ c)
theorem w5_a10 : W5 m ρ c (Proc.devRef .tc main_arg10) = (m ((c : Thread nD τ).loc main_arg10)) :=
  (show StableHlo.after hostOps2 (W4 m ρ c) (Proc.devRef .tc main_arg10) = W4 m ρ c (Proc.devRef .tc main_arg10) by after_results).trans (w4_a10 m ρ c)
theorem w6_a10 : W6 m ρ c (Proc.devRef .tc main_arg10) = (m ((c : Thread nD τ).loc main_arg10)) := (W6_of_ne m ρ c main_arg10 (by decide)).trans (w5_a10 m ρ c)

theorem w1_a11 : W1 m ρ c (Proc.devRef .tc main_arg11) = (m ((c : Thread nD τ).loc main_arg11)) := by
  show StableHlo.after hostOps0 (W0 m ρ c) (Proc.devRef .tc main_arg11) = _
  after_results <;> rfl
theorem w2_a11 : W2 m ρ c (Proc.devRef .tc main_arg11) = (m ((c : Thread nD τ).loc main_arg11)) := (W2_of_ne m ρ c main_arg11 (by decide)).trans (w1_a11 m ρ c)
theorem w3_a11 : W3 m ρ c (Proc.devRef .tc main_arg11) = (m ((c : Thread nD τ).loc main_arg11)) :=
  (show StableHlo.after hostOps1 (W2 m ρ c) (Proc.devRef .tc main_arg11) = W2 m ρ c (Proc.devRef .tc main_arg11) by after_results).trans (w2_a11 m ρ c)
theorem w4_a11 : W4 m ρ c (Proc.devRef .tc main_arg11) = (m ((c : Thread nD τ).loc main_arg11)) := (W4_of_ne m ρ c main_arg11 (by decide)).trans (w3_a11 m ρ c)
theorem w5_a11 : W5 m ρ c (Proc.devRef .tc main_arg11) = (m ((c : Thread nD τ).loc main_arg11)) :=
  (show StableHlo.after hostOps2 (W4 m ρ c) (Proc.devRef .tc main_arg11) = W4 m ρ c (Proc.devRef .tc main_arg11) by after_results).trans (w4_a11 m ρ c)
theorem w6_a11 : W6 m ρ c (Proc.devRef .tc main_arg11) = (m ((c : Thread nD τ).loc main_arg11)) := (W6_of_ne m ρ c main_arg11 (by decide)).trans (w5_a11 m ρ c)

theorem w1_a12 : W1 m ρ c (Proc.devRef .tc main_arg12) = (m ((c : Thread nD τ).loc main_arg12)) := by
  show StableHlo.after hostOps0 (W0 m ρ c) (Proc.devRef .tc main_arg12) = _
  after_results <;> rfl
theorem w2_a12 : W2 m ρ c (Proc.devRef .tc main_arg12) = (m ((c : Thread nD τ).loc main_arg12)) := (W2_of_ne m ρ c main_arg12 (by decide)).trans (w1_a12 m ρ c)
theorem w3_a12 : W3 m ρ c (Proc.devRef .tc main_arg12) = (m ((c : Thread nD τ).loc main_arg12)) :=
  (show StableHlo.after hostOps1 (W2 m ρ c) (Proc.devRef .tc main_arg12) = W2 m ρ c (Proc.devRef .tc main_arg12) by after_results).trans (w2_a12 m ρ c)
theorem w4_a12 : W4 m ρ c (Proc.devRef .tc main_arg12) = (m ((c : Thread nD τ).loc main_arg12)) := (W4_of_ne m ρ c main_arg12 (by decide)).trans (w3_a12 m ρ c)
theorem w5_a12 : W5 m ρ c (Proc.devRef .tc main_arg12) = (m ((c : Thread nD τ).loc main_arg12)) :=
  (show StableHlo.after hostOps2 (W4 m ρ c) (Proc.devRef .tc main_arg12) = W4 m ρ c (Proc.devRef .tc main_arg12) by after_results).trans (w4_a12 m ρ c)
theorem w6_a12 : W6 m ρ c (Proc.devRef .tc main_arg12) = (m ((c : Thread nD τ).loc main_arg12)) := (W6_of_ne m ρ c main_arg12 (by decide)).trans (w5_a12 m ρ c)

theorem w1_a13 : W1 m ρ c (Proc.devRef .tc main_arg13) = (m ((c : Thread nD τ).loc main_arg13)) := by
  show StableHlo.after hostOps0 (W0 m ρ c) (Proc.devRef .tc main_arg13) = _
  after_results <;> rfl
theorem w2_a13 : W2 m ρ c (Proc.devRef .tc main_arg13) = (m ((c : Thread nD τ).loc main_arg13)) := (W2_of_ne m ρ c main_arg13 (by decide)).trans (w1_a13 m ρ c)
theorem w3_a13 : W3 m ρ c (Proc.devRef .tc main_arg13) = (m ((c : Thread nD τ).loc main_arg13)) :=
  (show StableHlo.after hostOps1 (W2 m ρ c) (Proc.devRef .tc main_arg13) = W2 m ρ c (Proc.devRef .tc main_arg13) by after_results).trans (w2_a13 m ρ c)
theorem w4_a13 : W4 m ρ c (Proc.devRef .tc main_arg13) = (m ((c : Thread nD τ).loc main_arg13)) := (W4_of_ne m ρ c main_arg13 (by decide)).trans (w3_a13 m ρ c)
theorem w5_a13 : W5 m ρ c (Proc.devRef .tc main_arg13) = (m ((c : Thread nD τ).loc main_arg13)) :=
  (show StableHlo.after hostOps2 (W4 m ρ c) (Proc.devRef .tc main_arg13) = W4 m ρ c (Proc.devRef .tc main_arg13) by after_results).trans (w4_a13 m ρ c)
theorem w6_a13 : W6 m ρ c (Proc.devRef .tc main_arg13) = (m ((c : Thread nD τ).loc main_arg13)) := (W6_of_ne m ρ c main_arg13 (by decide)).trans (w5_a13 m ρ c)

theorem w7_a11 : W7 m ρ c (Proc.devRef .tc main_arg11) = (m ((c : Thread nD τ).loc main_arg11)) :=
  (show StableHlo.after hostOps3 (W6 m ρ c) (Proc.devRef .tc main_arg11) = W6 m ρ c (Proc.devRef .tc main_arg11) by after_results).trans (w6_a11 m ρ c)
theorem w7_a13 : W7 m ρ c (Proc.devRef .tc main_arg13) = (m ((c : Thread nD τ).loc main_arg13)) :=
  (show StableHlo.after hostOps3 (W6 m ρ c) (Proc.devRef .tc main_arg13) = W6 m ρ c (Proc.devRef .tc main_arg13) by after_results).trans (w6_a13 m ρ c)

/-! ## Layer 1 -/

theorem in1_agg : V1 m ρ c main_v18 = refAgg (m ((c : Thread nD τ).loc main_arg0)) (m ((c : Thread nD τ).loc main_arg1)) (m ((c : Thread nD τ).loc main_arg3)) :=
  Aggregation.agg1 (W0 m ρ c) _ _ _ rfl rfl rfl

theorem in1_nodes : V1 m ρ c main_arg0 = (m ((c : Thread nD τ).loc main_arg0)) := by
  show StableHlo.after hostOps0 (W0 m ρ c) (Proc.devRef .tc main_arg0) = _
  after_results
  all_goals rfl

theorem in1_wrel : V1 m ρ c main_v4 = (transpose Cert.ReferenceIdeal.S128x128 [1, 0] (m ((c : Thread nD τ).loc main_arg4)) Cert.ReferenceIdeal.Gen.transposes_S128x128_S128x128_1_0) := by
  show StableHlo.after hostOps0 (W0 m ρ c) (Proc.devRef .tc main_v4) = _
  after_results
  all_goals rfl

theorem in1_bias : V1 m ρ c main_arg5 = (m ((c : Thread nD τ).loc main_arg5)) := by
  show StableHlo.after hostOps0 (W0 m ρ c) (Proc.devRef .tc main_arg5) = _
  after_results
  all_goals rfl

theorem in1_wroot : V1 m ρ c main_v5 = (transpose Cert.ReferenceIdeal.S128x128 [1, 0] (m ((c : Thread nD τ).loc main_arg6)) Cert.ReferenceIdeal.Gen.transposes_S128x128_S128x128_1_0) := by
  show StableHlo.after hostOps0 (W0 m ρ c) (Proc.devRef .tc main_v5) = _
  after_results
  all_goals rfl

/-- The first layer's nodes, as the reference computes them. -/
abbrev L1 : (⟨Cert.ReferenceIdeal.S50000x128, .f32⟩ : BufTy).Contents (Elt Ideal) := refLayer (refAgg (m ((c : Thread nD τ).loc main_arg0)) (m ((c : Thread nD τ).loc main_arg1)) (m ((c : Thread nD τ).loc main_arg3))) (m ((c : Thread nD τ).loc main_arg0)) (m ((c : Thread nD τ).loc main_arg4)) (m ((c : Thread nD τ).loc main_arg5)) (m ((c : Thread nD τ).loc main_arg6))

theorem out1 : W2 m ρ c (Proc.devRef .tc main_v19) = L1 m c := by
  refine (W2_arr m ρ c 5).trans ?_
  rw [Layers.layer1_array (V1 m ρ) c, in1_agg, in1_nodes, in1_wrel, in1_bias, in1_wroot]
  exact (refLayer_eq _ _ _ _ _).symm

/-! ## Layer 2 -/

theorem in2_agg : V3 m ρ c main_v40 = refAgg (L1 m c) (m ((c : Thread nD τ).loc main_arg1)) (m ((c : Thread nD τ).loc main_arg3)) :=
  Aggregation.agg2 (W2 m ρ c) _ _ _ (out1 m ρ c) (w2_v1 m ρ c) (w2_v3 m ρ c) (w2_a3 m ρ c)
theorem in2_nodes : V3 m ρ c main_v19 = L1 m c := by
  show StableHlo.after hostOps1 (W2 m ρ c) (Proc.devRef .tc main_v19) = _
  after_results
  exact out1 m ρ c
theorem in2_wrel : V3 m ρ c main_v22 = (transpose Cert.ReferenceIdeal.S128x128 [1, 0] (Cert.ReferenceIdeal.Read.val_main_v27 (F := Ideal) (m ((c : Thread nD τ).loc main_arg7))) Cert.ReferenceIdeal.Gen.transposes_S128x128_S128x128_1_0) := by
  show StableHlo.after hostOps1 (W2 m ρ c) (Proc.devRef .tc main_v22) = _
  after_results
  rw [w2_a7]
  all_goals rfl
theorem in2_bias : V3 m ρ c main_v24 = (Cert.ReferenceIdeal.Read.val_main_v29 (F := Ideal) (m ((c : Thread nD τ).loc main_arg8))) := by
  show StableHlo.after hostOps1 (W2 m ρ c) (Proc.devRef .tc main_v24) = _
  after_results
  rw [w2_a8]
  all_goals rfl
theorem in2_wroot : V3 m ρ c main_v27 = (transpose Cert.ReferenceIdeal.S128x128 [1, 0] (Cert.ReferenceIdeal.Read.val_main_v31 (F := Ideal) (m ((c : Thread nD τ).loc main_arg9))) Cert.ReferenceIdeal.Gen.transposes_S128x128_S128x128_1_0) := by
  show StableHlo.after hostOps1 (W2 m ρ c) (Proc.devRef .tc main_v27) = _
  after_results
  rw [w2_a9]
  all_goals rfl

/-- The second layer's nodes, as the reference computes them. -/
abbrev L2 : (⟨Cert.ReferenceIdeal.S50000x128, .f32⟩ : BufTy).Contents (Elt Ideal) :=
  refLayer (refAgg (L1 m c) (m ((c : Thread nD τ).loc main_arg1)) (m ((c : Thread nD τ).loc main_arg3))) (L1 m c) (Cert.ReferenceIdeal.Read.val_main_v27 (F := Ideal) (m ((c : Thread nD τ).loc main_arg7))) (Cert.ReferenceIdeal.Read.val_main_v29 (F := Ideal) (m ((c : Thread nD τ).loc main_arg8))) (Cert.ReferenceIdeal.Read.val_main_v31 (F := Ideal) (m ((c : Thread nD τ).loc main_arg9)))

theorem out2 : W4 m ρ c (Proc.devRef .tc main_v41) = L2 m c := by
  refine (W4_arr m ρ c 5).trans ?_
  rw [Layers.layer2_array (V3 m ρ) c, in2_agg, in2_nodes, in2_wrel, in2_bias, in2_wroot]
  exact (refLayer_eq _ _ _ _ _).symm

/-! ## Layer 3 -/

theorem in3_agg : V5 m ρ c main_v62 = refAgg (L2 m c) (m ((c : Thread nD τ).loc main_arg1)) (m ((c : Thread nD τ).loc main_arg3)) :=
  Aggregation.agg3 (W4 m ρ c) _ _ _ (out2 m ρ c) (w4_v1 m ρ c) (w4_v3 m ρ c) (w4_a3 m ρ c)
theorem in3_nodes : V5 m ρ c main_v41 = L2 m c := by
  show StableHlo.after hostOps2 (W4 m ρ c) (Proc.devRef .tc main_v41) = _
  after_results
  exact out2 m ρ c
theorem in3_wrel : V5 m ρ c main_v44 = (transpose Cert.ReferenceIdeal.S128x128 [1, 0] (Cert.ReferenceIdeal.Read.val_main_v55 (F := Ideal) (m ((c : Thread nD τ).loc main_arg7))) Cert.ReferenceIdeal.Gen.transposes_S128x128_S128x128_1_0) := by
  show StableHlo.after hostOps2 (W4 m ρ c) (Proc.devRef .tc main_v44) = _
  after_results
  rw [w4_a7]
  all_goals rfl
theorem in3_bias : V5 m ρ c main_v46 = (Cert.ReferenceIdeal.Read.val_main_v57 (F := Ideal) (m ((c : Thread nD τ).loc main_arg8))) := by
  show StableHlo.after hostOps2 (W4 m ρ c) (Proc.devRef .tc main_v46) = _
  after_results
  rw [w4_a8]
  all_goals rfl
theorem in3_wroot : V5 m ρ c main_v49 = (transpose Cert.ReferenceIdeal.S128x128 [1, 0] (Cert.ReferenceIdeal.Read.val_main_v59 (F := Ideal) (m ((c : Thread nD τ).loc main_arg9))) Cert.ReferenceIdeal.Gen.transposes_S128x128_S128x128_1_0) := by
  show StableHlo.after hostOps2 (W4 m ρ c) (Proc.devRef .tc main_v49) = _
  after_results
  rw [w4_a9]
  all_goals rfl

/-- The third layer's nodes, as the reference computes them. -/
abbrev L3 : (⟨Cert.ReferenceIdeal.S50000x128, .f32⟩ : BufTy).Contents (Elt Ideal) :=
  refLayer (refAgg (L2 m c) (m ((c : Thread nD τ).loc main_arg1)) (m ((c : Thread nD τ).loc main_arg3))) (L2 m c) (Cert.ReferenceIdeal.Read.val_main_v55 (F := Ideal) (m ((c : Thread nD τ).loc main_arg7))) (Cert.ReferenceIdeal.Read.val_main_v57 (F := Ideal) (m ((c : Thread nD τ).loc main_arg8))) (Cert.ReferenceIdeal.Read.val_main_v59 (F := Ideal) (m ((c : Thread nD τ).loc main_arg9)))

theorem out3 : W6 m ρ c (Proc.devRef .tc main_v63) = L3 m c := by
  refine (W6_arr m ρ c 5).trans ?_
  rw [Layers.layer3_array (V5 m ρ) c, in3_agg, in3_nodes, in3_wrel, in3_bias, in3_wroot]
  exact (refLayer_eq _ _ _ _ _).symm

/-! ## The head -/

theorem in4_pool : V7 m ρ c main_v66 = refPool (L3 m c) (m ((c : Thread nD τ).loc main_arg2)) := by
  show StableHlo.after hostOps3 (W6 m ρ c) (Proc.devRef .tc main_v66) = _
  after_results
  rw [out3, w6_a2]
  rfl
theorem in4_w1 : V7 m ρ c main_v67 = (transpose Cert.ReferenceIdeal.S128x128 [1, 0] (m ((c : Thread nD τ).loc main_arg10)) Cert.ReferenceIdeal.Gen.transposes_S128x128_S128x128_1_0) := by
  show StableHlo.after hostOps3 (W6 m ρ c) (Proc.devRef .tc main_v67) = _
  after_results
  rw [w6_a10]
  all_goals rfl
theorem in4_b1 : V7 m ρ c main_arg11 = (m ((c : Thread nD τ).loc main_arg11)) := w7_a11 m ρ c
theorem in4_w2 : V7 m ρ c main_v68 = (transpose Cert.ReferenceIdeal.S128x1 [1, 0] (m ((c : Thread nD τ).loc main_arg12)) Cert.ReferenceIdeal.Gen.transposes_S1x128_S128x1_1_0) := by
  show StableHlo.after hostOps3 (W6 m ρ c) (Proc.devRef .tc main_v68) = _
  after_results
  rw [w6_a12]
  all_goals rfl
theorem in4_b2 : V7 m ρ c main_arg13 = (m ((c : Thread nD τ).loc main_arg13)) := w7_a13 m ρ c

/-- THE RESULT: the last boundary's contents at the result buffer are the reference's composed value of the
    fourteen arguments. -/
theorem result_eq : W8 m ρ c (Proc.devRef .tc main_v69)
    = Cert.ReferenceIdeal.Read.val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W8_arr m ρ c 5).trans ?_
  rw [Layers.head_array (V7 m ρ) c, in4_pool, in4_w1, in4_b1, in4_w2, in4_b2, Cert.ReferenceIdeal.Layers.result_comp]
  exact (refHead_eq _ _ _ _ _).symm

end Cert.KernelIdeal.Boundaries

end
-- ==== Proof.lean ====
/-
  The certificate of a three-layer graph convolution with a pooled two-layer head.

  Each layer gathers every edge's source row of the node features, scales it by the edge weight and adds it into the
  destination row (host operations, the same in both programs), then applies
  `h ↦ max (agg·W_relᵀ + h·W_rootᵀ + b, 0)`; the kernel does the last step in a pallas region over 25 blocks of
  2000 rows, adding the two products first and the bias last, where the reference adds the bias between the two
  products.  On the extended reals addition is commutative and associative, so the two orders agree with no appeal to
  finiteness of the inputs.  After three layers the rows are added per graph and the head
  `p ↦ max (p·W₁ᵀ + b₁, 0)·W₂ᵀ + b₂` is one more region, the same expression in both programs.  Rounding operands
  to a narrower format before a product is the identity on exact values, and a block product into a zero accumulator
  is the host's product restricted to the block's rows.

  The three frames come from the generated frame certificates and the generated reference run; the idealization rewrote
  nothing, so its preservation claim is trivially true.
-/
import proofs.«117946_j52020643889507_1_alg».proof.Defs
import proofs.«117946_j52020643889507_1_alg».proof.Proof.Gen.Kernel
import proofs.«117946_j52020643889507_1_alg».proof.Proof.Gen.Kernel.Frame
import proofs.«117946_j52020643889507_1_alg».proof.Proof.Gen.KernelIdeal
import proofs.«117946_j52020643889507_1_alg».proof.Proof.Gen.KernelIdeal.Frame
import proofs.«117946_j52020643889507_1_alg».proof.Proof.Gen.ReferenceIdeal
import proofs.«117946_j52020643889507_1_alg».proof.Proof.Gen.Pre_finite_inputs
import proofs.«117946_j52020643889507_1_alg».proof.Proof.Gen.ReferenceIdeal.Run
import proofs.«117946_j52020643889507_1_alg».proof.Proof.Gen.ReferenceIdeal.Read
import proofs.«117946_j52020643889507_1_alg».proof.Proof.KernelRun
import proofs.«117946_j52020643889507_1_alg».proof.Proof.Boundaries
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  by
    intro m ρ m' ρ' _ hagree
    refine ⟨fun c => Cert.KernelIdeal.Gen.W8 m ρ c (Proc.devRef .tc Cert.KernelIdeal.main_v69),
      Cert.KernelIdeal.Named.run_named (F := Ideal) m ρ, ?_⟩
    refine (θ_run Cert.ReferenceIdeal.defs _ _).mono (fun _ h c => ⟨(h c).1.trans ?_, (h c).2⟩)
      (Cert.ReferenceIdeal.Value.run (F := Ideal) m' ρ')
    rw [Cert.ReferenceIdeal.Read.val_main_v95_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
    exact (Cert.KernelIdeal.Boundaries.result_eq m ρ c).symm⟩

end Cert.Proof

end
